-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S128x32 : Shape := ⟨2, ![128, 32]⟩
abbrev S32 : Shape := ⟨1, ![32]⟩
abbrev S32x40 : Shape := ⟨2, ![32, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x40 : S_.BroadcastsInDim S32x40 (![] : Fin 0 → Fin S32x40.rank)
  reducesTo_S32x40_S_d0_1 : S32x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S32x40 .f32) (main_arg6 : FVec F S40 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x40 .f32 := Host.absf main_arg5
  let main_cst_6 : FVec F S_ .f32 := constant S_ .f32 0x7F800000#32
  let main_v20 : FVec F S32x40 .f32 := broadcastInDim S32x40 ![] bcast_S_S32x40 main_cst_6
  let main_v21 : IVec S32x40 1 := cmpf .olt main_v19 main_v20
  let main_c_7 : IVec S_ 1 := constantI S_ 1 1#1
  let main_v22 : IVec S_ 1 := (fun x v => Host.reduce IntOp.andi x v reducesTo_S32x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x128 .f32) (main_arg1 : IVec S2x3200000 32) (main_arg2 : FVec F S3200000 .f32) (main_arg3 : FVec F S128x32 .f32) (main_arg4 : FVec F S32 .f32) (main_arg5 : FVec F S32x40 .f32) (main_arg6 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x32 .f32 := Host.absf main_arg3
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S128x32 : Shape := ⟨2, ![128, 32]⟩
abbrev S32 : Shape := ⟨1, ![32]⟩
abbrev S32x40 : Shape := ⟨2, ![32, 40]⟩
abbrev S40 : Shape := ⟨1, ![40]⟩
abbrev S1x3200000 : Shape := ⟨2, ![1, 3200000]⟩
abbrev S100000x32 : Shape := ⟨2, ![100000, 32]⟩
abbrev S20000x128 : Shape := ⟨2, ![20000, 128]⟩
abbrev S20000x32 : Shape := ⟨2, ![20000, 32]⟩
abbrev S_ : Shape := ⟨0, ![]⟩
abbrev S3200000x1 : Shape := ⟨2, ![3200000, 1]⟩
abbrev S3200000x32 : Shape := ⟨2, ![3200000, 32]⟩
abbrev S1x32 : Shape := ⟨2, ![1, 32]⟩
abbrev S100000x40 : Shape := ⟨2, ![100000, 40]⟩
abbrev S20000x40 : Shape := ⟨2, ![20000, 40]⟩
abbrev S3200000x40 : Shape := ⟨2, ![3200000, 40]⟩
abbrev S1x40 : Shape := ⟨2, ![1, 40]⟩
abbrev S20000 : Shape := ⟨1, ![20000]⟩
abbrev S20000x1 : Shape := ⟨2, ![20000, 1]⟩

abbrev nBuf : Space → Nat
  | .hbm => 48
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x32, .f32⟩
  | .hbm, ⟨4, _⟩ => ⟨S32, .f32⟩
  | .hbm, ⟨5, _⟩ => ⟨S32x40, .f32⟩
  | .hbm, ⟨6, _⟩ => ⟨S40, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000x32, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x32, .f32⟩
  | .hbm, ⟨21, _⟩ => ⟨S3200000x1, .f32⟩
  | .hbm, ⟨22, _⟩ => ⟨S3200000x32, .f32⟩
  | .hbm, ⟨23, _⟩ => ⟨S3200000x32, .f32⟩
  | .hbm, ⟨24, _⟩ => ⟨S_, .f32⟩
  | .hbm, ⟨25, _⟩ => ⟨S100000x32, .f32⟩
  | .hbm, ⟨26, _⟩ => ⟨S3200000x1, .i32⟩
  | .hbm, ⟨27, _⟩ => ⟨S100000x32, .f32⟩
  | .hbm, ⟨28, _⟩ => ⟨S1x32, .f32⟩
  | .hbm, ⟨29, _⟩ => ⟨S100000x40, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000x40, .f32⟩
  | .hbm, ⟨39, _⟩ => ⟨S3200000x1, .f32⟩
  | .hbm, ⟨40, _⟩ => ⟨S3200000x40, .f32⟩
  | .hbm, ⟨41, _⟩ => ⟨S3200000x40, .f32⟩
  | .hbm, ⟨42, _⟩ => ⟨S_, .f32⟩
  | .hbm, ⟨43, _⟩ => ⟨S100000x40, .f32⟩
  | .hbm, ⟨44, _⟩ => ⟨S3200000x1, .i32⟩
  | .hbm, ⟨45, _⟩ => ⟨S100000x40, .f32⟩
  | .hbm, ⟨46, _⟩ => ⟨S1x40, .f32⟩
  | .hbm, ⟨47, _⟩ => ⟨S100000x40, .f32⟩
  | .local _ .vmem, ⟨0, _⟩ => ⟨S20000x128, .f32⟩
  | .local _ .vmem, ⟨1, _⟩ => ⟨S20000x128, .f32⟩
  | .local _ .vmem, ⟨2, _⟩ => ⟨S128x32, .f32⟩
  | .local _ .vmem, ⟨3, _⟩ => ⟨S20000x32, .f32⟩
  | .local _ .vmem, ⟨4, _⟩ => ⟨S20000x32, .f32⟩
  | .local _ .vmem, ⟨5, _⟩ => ⟨S20000x32, .f32⟩
  | .local _ .vmem, ⟨6, _⟩ => ⟨S20000x32, .f32⟩
  | .local _ .vmem, ⟨7, _⟩ => ⟨S1x32, .f32⟩
  | .local _ .vmem, ⟨8, _⟩ => ⟨S32x40, .f32⟩
  | .local _ .vmem, ⟨9, _⟩ => ⟨S20000x40, .f32⟩
  | .local _ .vmem, ⟨10, _⟩ => ⟨S20000x40, .f32⟩
  | .local _ .vmem, ⟨11, _⟩ => ⟨S20000x40, .f32⟩
  | .local _ .vmem, ⟨12, _⟩ => ⟨S20000x40, .f32⟩
  | .local _ .vmem, ⟨13, _⟩ => ⟨S1x40, .f32⟩
  | .local _ .vmem, ⟨14, _⟩ => ⟨S20000x40, .f32⟩
  | .local _ .vmem, ⟨15, _⟩ => ⟨S20000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S20000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S20000x128_S20000x128_0_0 : ∀ a, (![0, 0] : Fin 2 → Nat) a + S20000x128.size a ≤ S20000x128.size a
  h_S20000x128 : 0 < S20000x128.numel
  inb_S128x32_S128x32_0_0 : ∀ a, (![0, 0] : Fin 2 → Nat) a + S128x32.size a ≤ S128x32.size a
  h_S128x32 : 0 < S128x32.numel
  inb_S20000x32_S20000x32_0_0 : ∀ a, (![0, 0] : Fin 2 → Nat) a + S20000x32.size a ≤ S20000x32.size a
  h_S20000x32 : 0 < S20000x32.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S32_S1x32 : S32.ShapeCasts S1x32
  shapeCasts_S20000x32_S20000x32 : S20000x32.ShapeCasts S20000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S20000x32 : S1x32.Broadcasts S20000x32
  inb_S32x40_S32x40_0_0 : ∀ a, (![0, 0] : Fin 2 → Nat) a + S32x40.size a ≤ S32x40.size a
  h_S32x40 : 0 < S32x40.numel
  inb_S20000x40_S20000x40_0_0 : ∀ a, (![0, 0] : Fin 2 → Nat) a + S20000x40.size a ≤ S20000x40.size a
  h_S20000x40 : 0 < S20000x40.numel
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  shapeCasts_S40_S1x40 : S40.ShapeCasts S1x40
  shapeCasts_S20000x40_S20000x40 : S20000x40.ShapeCasts S20000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S20000x40 : S1x40.Broadcasts S20000x40
  reduces_S20000x40_S20000 : S20000x40.Reduces [1] S20000
  shapeCasts_S20000_S20000x1 : S20000.ShapeCasts S20000x1
  broadcasts_S20000x1_S20000x40 : S20000x1.Broadcasts S20000x40
  dot_S20000x128_S128x32_S20000x32_1_0_0_1_n_n_wf : DotDims.WF S20000x128 S128x32 S20000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S20000x32_S32x40_S20000x40_1_0_0_1_n_n_wf : DotDims.WF S20000x32 S32x40 S20000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S100000x128.size a
  hwx0_0 : ∀ i : grid0.Coords, EltTy.bits .f32 = 32 ∨ (Rect.block (s := S100000x128) S20000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x32.size a ≤ S100000x32.size a
  hwx0_2 : ∀ i : grid0.Coords, EltTy.bits .f32 = 32 ∨ (Rect.block (s := S100000x32) S20000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x32.size a ≤ S100000x32.size a
  hwx1_0 : ∀ i : grid1.Coords, EltTy.bits .f32 = 32 ∨ (Rect.block (s := S100000x32) S20000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x40.size a ≤ S32x40.size a
  hwx1_2 : ∀ i : grid1.Coords, EltTy.bits .f32 = 32 ∨ (Rect.block (s := S32x40) S32x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x40.size a ≤ S100000x40.size a
  hwx1_3 : ∀ i : grid1.Coords, EltTy.bits .f32 = 32 ∨ (Rect.block (s := S100000x40) S20000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x40.size a ≤ S100000x40.size a
  hwx2_0 : ∀ i : grid2.Coords, EltTy.bits .f32 = 32 ∨ (Rect.block (s := S100000x40) S20000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x40.size a ≤ S100000x40.size a
  hwx2_2 : ∀ i : grid2.Coords, EltTy.bits .f32 = 32 ∨ (Rect.block (s := S100000x40) S20000x40.size (cc2_transform_2 i) (hinb2_2 i)).WholeWords (EltTy.packing .f32)

variable [Facts₀]

def dot_S20000x128_S128x32_S20000x32_1_0_0_1_n_n : DotDims S20000x128 S128x32 S20000x32 where
  lhsContracting := [1]
  rhsContracting := [0]
  lhsNonContracting := [0]
  rhsNonContracting := [1]
  lhsBatch := []
  rhsBatch := []
  wf := dot_S20000x128_S128x32_S20000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S20000x32_S32x40_S20000x40_1_0_0_1_n_n : DotDims S20000x32 S32x40 S20000x40 where
  lhsContracting := [1]
  rhsContracting := [0]
  lhsNonContracting := [0]
  rhsNonContracting := [1]
  lhsBatch := []
  rhsBatch := []
  wf := dot_S20000x32_S32x40_S20000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

abbrev win0_0 : Pipeline.Window sig grid0 :=
  Pipeline.Window.ofSpec (Memref.whole main_arg0) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S20000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S20000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S20000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v32) S20000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S20000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S128x32 : Shape := ⟨2, ![128, 32]⟩
abbrev S32 : Shape := ⟨1, ![32]⟩
abbrev S32x40 : Shape := ⟨2, ![32, 40]⟩
abbrev S40 : Shape := ⟨1, ![40]⟩
abbrev S100000x32 : Shape := ⟨2, ![100000, 32]⟩
abbrev S1x3200000 : Shape := ⟨2, ![1, 3200000]⟩
abbrev S_ : Shape := ⟨0, ![]⟩
abbrev S3200000x1 : Shape := ⟨2, ![3200000, 1]⟩
abbrev S3200000x32 : Shape := ⟨2, ![3200000, 32]⟩
abbrev S1x32 : Shape := ⟨2, ![1, 32]⟩
abbrev S100000x40 : Shape := ⟨2, ![100000, 40]⟩
abbrev S3200000x40 : Shape := ⟨2, ![3200000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 73
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x32, .f32⟩
  | .hbm, ⟨4, _⟩ => ⟨S32, .f32⟩
  | .hbm, ⟨5, _⟩ => ⟨S32x40, .f32⟩
  | .hbm, ⟨6, _⟩ => ⟨S40, .f32⟩
  | .hbm, ⟨7, _⟩ => ⟨S100000x32, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x32, .f32⟩
  | .hbm, ⟨21, _⟩ => ⟨S3200000x1, .f32⟩
  | .hbm, ⟨22, _⟩ => ⟨S3200000x32, .f32⟩
  | .hbm, ⟨23, _⟩ => ⟨S3200000x32, .f32⟩
  | .hbm, ⟨24, _⟩ => ⟨S_, .f32⟩
  | .hbm, ⟨25, _⟩ => ⟨S100000x32, .f32⟩
  | .hbm, ⟨26, _⟩ => ⟨S3200000x1, .i32⟩
  | .hbm, ⟨27, _⟩ => ⟨S100000x32, .f32⟩
  | .hbm, ⟨28, _⟩ => ⟨S1x32, .f32⟩
  | .hbm, ⟨29, _⟩ => ⟨S100000x32, .f32⟩
  | .hbm, ⟨30, _⟩ => ⟨S100000x32, .f32⟩
  | .hbm, ⟨31, _⟩ => ⟨S_, .f32⟩
  | .hbm, ⟨32, _⟩ => ⟨S100000x32, .f32⟩
  | .hbm, ⟨33, _⟩ => ⟨S100000x32, .f32⟩
  | .hbm, ⟨34, _⟩ => ⟨S100000x40, .f32⟩
  | .hbm, ⟨35, _⟩ => ⟨S1x3200000, .i32⟩
  | .hbm, ⟨36, _⟩ => ⟨S3200000, .i32⟩
  | .hbm, ⟨37, _⟩ => ⟨S1x3200000, .i32⟩
  | .hbm, ⟨38, _⟩ => ⟨S3200000, .i32⟩
  | .hbm, ⟨39, _⟩ => ⟨S_, .i32⟩
  | .hbm, ⟨40, _⟩ => ⟨S3200000, .i32⟩
  | .hbm, ⟨41, _⟩ => ⟨S3200000, .i1⟩
  | .hbm, ⟨42, _⟩ => ⟨S_, .i32⟩
  | .hbm, ⟨43, _⟩ => ⟨S3200000, .i32⟩
  | .hbm, ⟨44, _⟩ => ⟨S3200000, .i32⟩
  | .hbm, ⟨45, _⟩ => ⟨S3200000, .i32⟩
  | .hbm, ⟨46, _⟩ => ⟨S3200000x1, .i32⟩
  | .hbm, ⟨47, _⟩ => ⟨S3200000x40, .f32⟩
  | .hbm, ⟨48, _⟩ => ⟨S3200000x1, .f32⟩
  | .hbm, ⟨49, _⟩ => ⟨S3200000x40, .f32⟩
  | .hbm, ⟨50, _⟩ => ⟨S3200000x40, .f32⟩
  | .hbm, ⟨51, _⟩ => ⟨S_, .f32⟩
  | .hbm, ⟨52, _⟩ => ⟨S100000x40, .f32⟩
  | .hbm, ⟨53, _⟩ => ⟨S3200000x1, .i32⟩
  | .hbm, ⟨54, _⟩ => ⟨S100000x40, .f32⟩
  | .hbm, ⟨55, _⟩ => ⟨S1x40, .f32⟩
  | .hbm, ⟨56, _⟩ => ⟨S100000x40, .f32⟩
  | .hbm, ⟨57, _⟩ => ⟨S100000x40, .f32⟩
  | .hbm, ⟨58, _⟩ => ⟨S_, .f32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x40, .f32⟩
  | .hbm, ⟨65, _⟩ => ⟨S100000x40, .f32⟩
  | .hbm, ⟨66, _⟩ => ⟨S100000x40, .f32⟩
  | .hbm, ⟨67, _⟩ => ⟨S_, .f32⟩
  | .hbm, ⟨68, _⟩ => ⟨S100000, .f32⟩
  | .hbm, ⟨69, _⟩ => ⟨S100000x1, .f32⟩
  | .hbm, ⟨70, _⟩ => ⟨S100000x1, .f32⟩
  | .hbm, ⟨71, _⟩ => ⟨S100000x40, .f32⟩
  | .hbm, ⟨72, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_1 : Ref sig .tc := ⟨.hbm, 39, rfl⟩
abbrev main_v27 : Ref sig .tc := ⟨.hbm, 40, rfl⟩
abbrev main_v28 : Ref sig .tc := ⟨.hbm, 41, rfl⟩
abbrev main_c_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call1_cst : Ref sig .tc := ⟨.hbm, 58, rfl⟩
abbrev main_call1_v0 : Ref sig .tc := ⟨.hbm, 59, rfl⟩
abbrev main_call1_cst_0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_cst_1 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_v43 : Ref sig .tc := ⟨.hbm, 72, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x32_S100000x32_1_0_0_1_n_n_wf : DotDims.WF S100000x128 S128x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x40_S100000x40_1_0_0_1_n_n_wf : DotDims.WF S100000x32 S32x40 S100000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x40_S100000x40_1_0_0_1_n_n : DotDims S100000x32 S32x40 S100000x40 where
  lhsContracting := [1]
  rhsContracting := [0]
  lhsNonContracting := [0]
  rhsNonContracting := [1]
  lhsBatch := []
  rhsBatch := []
  wf := dot_S100000x32_S32x40_S100000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

class Facts : Prop extends Facts₀ where

variable [Facts]
-- ==== Proof.KernelRun.lean ====
/-
  The idealized kernel program's run with every buffer named.

  The program is three kernel regions among stretches of host operations. The launch theorem for such a program gives,
  for every weakly fair execution, termination without a fault and a final memory in which every unscoped buffer of every
  core holds the value the fold through the program's segments assigns it: the launch memory, pushed through each host
  stretch and, at each region, with the region's output array replaced by what its write-backs leave. The frame claim
  keeps only the argument buffers of that post-condition; here it is kept whole, so that the result buffer can be read too.
-/
import proofs.«135168_j17489106829462_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final memory every unscoped buffer
    `b` of every core `c` holds `W6 m ρ c b`, the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The result buffer and the seven argument buffers are unscoped. -/
theorem run_named : θ_run defs (onTc (τ := τ) (main (F := F))) ⟨m, fun _ => 0, ρ⟩ (fun r => ∀ c : Dev nD,
      r.2.mem ((c.tc : Thread nD τ).loc main_v34) = W6 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h c _ (mem_uc main_v34 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)
    (run_all m ρ)

end Cert.KernelIdeal.Whole

end
-- ==== Proof.Spec.lean ====
/-
  What the two programs compute, stage by stage, as functions of whole arrays.

  Both programs are a two-layer graph convolution followed by a row-wise log-softmax. With `x` the node features, `s` and `d`
  the edges' source and destination rows, `w` the edge weights:
    * `layer1 x W1 = x · W1`;
    * `agg h s d w`: every edge `e` gathers row `s e` of `h` (a negative `s e` counted from the end), scales it by `w e`, and the
      scaled rows are summed into row `d e` of an array of zeros — the same host operations in both programs, so this stage is
      carried as one function and never opened;
    * `layer2 a b W2 = max (a + b) 0 · W2`, the bias `b` given as the one row `[1, 32]`;
    * `logits a b = a + b`, the bias again a row `[1, 40]`, and `lsm` the logarithm of the softmax of every row, in the spelling
      of the host: maximum of the row from `−∞`, subtract, exponential, sum, logarithm, subtract.
  `out` composes them.
-/
import proofs.«135168_j17489106829462_2_alg».proof.Proof.Gen.ReferenceIdeal
import Idealize.ShloMosaic.PureOps.Ideal

noncomputable section

namespace Cert.Gcn

open Idealize.ShloMosaic Idealize.SL.Sem Cert.ReferenceIdeal Cert.ReferenceIdeal.Facts₀

/-- The edges' source rows: row 0 of the edge table. -/
def src (e : (⟨S2x3200000, .i32⟩ : BufTy).Contents (Elt Ideal)) : (⟨S3200000, .i32⟩ : BufTy).Contents (Elt Ideal) :=
  shapeCast _ (extractStridedSlice S1x3200000 ![0, 0] e slices_S2x3200000_S1x3200000_0_0) shapeCasts_S1x3200000_S3200000

/-- The edges' destination rows: row 1 of the edge table. -/
def dst (e : (⟨S2x3200000, .i32⟩ : BufTy).Contents (Elt Ideal)) : (⟨S3200000, .i32⟩ : BufTy).Contents (Elt Ideal) :=
  shapeCast _ (extractStridedSlice S1x3200000 ![1, 0] e slices_S2x3200000_S1x3200000_1_0) shapeCasts_S1x3200000_S3200000

/-- A negative row number counts from the end: `s + 100000` where `s < 0`. -/
def wrap (s : (⟨S3200000, .i32⟩ : BufTy).Contents (Elt Ideal)) : (⟨S3200000, .i32⟩ : BufTy).Contents (Elt Ideal) :=
  select (cmpi .slt s (broadcastInDim S3200000 ![] bcast_S_S3200000 (constantI S_ 32 0#32)))
    (addi s (broadcastInDim S3200000 ![] bcast_S_S3200000 (constantI S_ 32 100000#32))) s

/-- First layer's dense product. -/
def layer1 (x : FVec Ideal S100000x128 .f32) (W1 : FVec Ideal S128x32 .f32) : FVec Ideal S100000x32 .f32 :=
  Host.dotGeneral dot_S100000x128_S128x32_S100000x32_1_0_0_1_n_n none x W1

/-- Gather the source rows, scale by the edge weights, sum into the destination rows (32 columns). -/
def agg32 (h : FVec Ideal S100000x32 .f32) (s d : (⟨S3200000, .i32⟩ : BufTy).Contents (Elt Ideal))
    (w : FVec Ideal S3200000 .f32) : FVec Ideal S100000x32 .f32 :=
  Host.scatterAdd scatter_S100000x32_S3200000x1_S3200000x32_1_0_0_1
    (broadcastInDim S100000x32 ![] bcast_S_S100000x32 (constant S_ .f32 0x00000000#32))
    (broadcastInDim S3200000x1 ![0] bcast_S3200000_S3200000x1_0 d)
    (mulf (Host.gather gather_S100000x32_S3200000x1_S3200000x32_1_0_n_n_0_1_132 h
        (broadcastInDim S3200000x1 ![0] bcast_S3200000_S3200000x1_0 (wrap s)))
      (broadcastInDim S3200000x32 ![0, 1] bcast_S3200000x1_S3200000x32_0_1
        (broadcastInDim S3200000x1 ![0] bcast_S3200000_S3200000x1_0 w)))

/-- The same with 40 columns. -/
def agg40 (h : FVec Ideal S100000x40 .f32) (s d : (⟨S3200000, .i32⟩ : BufTy).Contents (Elt Ideal))
    (w : FVec Ideal S3200000 .f32) : FVec Ideal S100000x40 .f32 :=
  Host.scatterAdd scatter_S100000x40_S3200000x1_S3200000x40_1_0_0_1
    (broadcastInDim S100000x40 ![] bcast_S_S100000x40 (constant S_ .f32 0x00000000#32))
    (broadcastInDim S3200000x1 ![0] bcast_S3200000_S3200000x1_0 d)
    (mulf (Host.gather gather_S100000x40_S3200000x1_S3200000x40_1_0_n_n_0_1_140 h
        (broadcastInDim S3200000x1 ![0] bcast_S3200000_S3200000x1_0 (wrap s)))
      (broadcastInDim S3200000x40 ![0, 1] bcast_S3200000x1_S3200000x40_0_1
        (broadcastInDim S3200000x1 ![0] bcast_S3200000_S3200000x1_0 w)))

/-- The hidden activations: bias row added, negative entries cut at zero. -/
def hidden (a : FVec Ideal S100000x32 .f32) (b : FVec Ideal S1x32 .f32) : FVec Ideal S100000x32 .f32 :=
  maximumf (addf a (broadcastInDim S100000x32 ![0, 1] bcast_S1x32_S100000x32_0_1 b))
    (broadcastInDim S100000x32 ![] bcast_S_S100000x32 (constant S_ .f32 0x00000000#32))

/-- Second layer's dense product of the hidden activations. -/
def layer2 (a : FVec Ideal S100000x32 .f32) (b : FVec Ideal S1x32 .f32) (W2 : FVec Ideal S32x40 .f32) :
    FVec Ideal S100000x40 .f32 :=
  Host.dotGeneral dot_S100000x32_S32x40_S100000x40_1_0_0_1_n_n none (hidden a b) W2

/-- The logits: bias row added. -/
def logits (a : FVec Ideal S100000x40 .f32) (b : FVec Ideal S1x40 .f32) : FVec Ideal S100000x40 .f32 :=
  addf a (broadcastInDim S100000x40 ![0, 1] bcast_S1x40_S100000x40_0_1 b)

/-- Every row's maximum, from `−∞`. -/
def lsmMax (L : FVec Ideal S100000x40 .f32) : FVec Ideal S100000 .f32 :=
  maximumf (broadcastInDim S100000 ![] bcast_S_S100000 (constant S_ .f32 0xFF800000#32))
    (Host.reduce FloatOps.maximumf L (constant S_ .f32 0xFF800000#32) reducesTo_S100000x40_S100000_d1 h_S_)

/-- The rows shifted by their maxima. -/
def lsmShift (L : FVec Ideal S100000x40 .f32) : FVec Ideal S100000x40 .f32 :=
  subf L (broadcastInDim S100000x40 ![0, 1] bcast_S100000x1_S100000x40_0_1
    (broadcastInDim S100000x1 ![0] bcast_S100000_S100000x1_0 (lsmMax L)))

/-- Every shifted row's sum of exponentials. -/
def lsmSum (L : FVec Ideal S100000x40 .f32) : FVec Ideal S100000 .f32 :=
  Host.reduceAdd (Host.exp (lsmShift L)) (constant S_ .f32 0x00000000#32) reducesTo_S100000x40_S100000_d1 h_S_

/-- The logarithm of the softmax of every row. -/
def lsm (L : FVec Ideal S100000x40 .f32) : FVec Ideal S100000x40 .f32 :=
  subf (lsmShift L) (broadcastInDim S100000x40 ![0, 1] bcast_S100000x1_S100000x40_0_1
    (Host.log (broadcastInDim S100000x1 ![0] bcast_S100000_S100000x1_0 (lsmSum L))))

/-- The whole network, the two biases as rows. -/
def out (x : FVec Ideal S100000x128 .f32) (e : (⟨S2x3200000, .i32⟩ : BufTy).Contents (Elt Ideal)) (w : FVec Ideal S3200000 .f32)
    (W1 : FVec Ideal S128x32 .f32) (b1 : FVec Ideal S1x32 .f32) (W2 : FVec Ideal S32x40 .f32) (b2 : FVec Ideal S1x40 .f32) :
    FVec Ideal S100000x40 .f32 :=
  lsm (logits (agg40 (layer2 (agg32 (layer1 x W1) (src e) (dst e) w) b1 W2) (src e) (dst e) w) b2)

end Cert.Gcn

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.Region0.lean ====
/-
  Region 0: the first dense product, block by block.

  The kernel runs over five blocks of 20000 rows. At block `t` its body multiplies rows `20000 t … 20000 t + 19999` of the
  features by the whole weight matrix, into a zero accumulator, and writes the product back as the same rows of the result.
  An entry of a matrix product depends on its own row of the left operand only, so the five write-backs together are the
  product of the whole arrays.
-/
import proofs.«135168_j17489106829462_2_alg».proof.Proof.Gen.KernelIdeal.Frame
import proofs.«135168_j17489106829462_2_alg».proof.Proof.Spec
import proofs.«135168_j17489106829462_2_alg».proof.Proof.LibRowColDot
import Idealize.ShloMosaic.Lib.Pipeline.Value
import Idealize.ShloMosaic.Lib.ValueIdx

noncomputable section

namespace Cert.Gcn.Region0

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

/-! ## The two products at an entry -/

/-- The body's product at `(p, q)` of a block: the sum over `k` of the block's row `p` against the weights' column `q`. -/
theorem pay_apply (xb : Vec Ideal S20000x128 .f32) (wb : Vec Ideal S128x32 .f32) (p : Fin 20000) (q : Fin 32) :
    k0_pay1 xb wb (ix2 p q) = ∑ k : Fin 128, xb (ix2 p k) * wb (ix2 k q) := by
  unfold k0_pay1
  refine Cert.RowColDot.matmul_rowcol dot_S20000x128_S128x32_S20000x32_1_0_0_1_n_n rfl rfl rfl rfl ?_ ?_ none xb wb (ix2 p q)
  · intro j r
    unfold DotDims.lhsIdx
    rw [dif_neg (show ¬(0 : Fin S20000x128.rank) ∈ dot_S20000x128_S128x32_S20000x32_1_0_0_1_n_n.lhsBatch by decide),
      dif_pos (show (0 : Fin S20000x128.rank) ∈ dot_S20000x128_S128x32_S20000x32_1_0_0_1_n_n.lhsNonContracting by decide)]
    rfl
  · intro j r
    unfold DotDims.rhsIdx
    rw [dif_neg (show ¬(1 : Fin S128x32.rank) ∈ dot_S20000x128_S128x32_S20000x32_1_0_0_1_n_n.rhsBatch by decide),
      dif_pos (show (1 : Fin S128x32.rank) ∈ dot_S20000x128_S128x32_S20000x32_1_0_0_1_n_n.rhsNonContracting by decide)]
    rfl

/-- The whole product at `(i, q)`: the sum over `k` of the features' row `i` against the weights' column `q`. -/
theorem layer1_apply (x : FVec Ideal Cert.ReferenceIdeal.S100000x128 .f32) (w : FVec Ideal Cert.ReferenceIdeal.S128x32 .f32)
    (i : Fin 100000) (q : Fin 32) :
    Cert.Gcn.layer1 x w (ix2 i q) = ∑ k : Fin 128, x (ix2 i k) * w (ix2 k q) := by
  unfold Cert.Gcn.layer1
  refine Cert.RowColDot.hostDot_rowcol Cert.ReferenceIdeal.dot_S100000x128_S128x32_S100000x32_1_0_0_1_n_n rfl rfl rfl rfl ?_ ?_ none x w (ix2 i q)
  · intro j r
    unfold DotDims.lhsIdx
    rw [dif_neg (show ¬(0 : Fin Cert.ReferenceIdeal.S100000x128.rank) ∈ Cert.ReferenceIdeal.dot_S100000x128_S128x32_S100000x32_1_0_0_1_n_n.lhsBatch by decide),
      dif_pos (show (0 : Fin Cert.ReferenceIdeal.S100000x128.rank) ∈ Cert.ReferenceIdeal.dot_S100000x128_S128x32_S100000x32_1_0_0_1_n_n.lhsNonContracting by decide)]
    rfl
  · intro j r
    unfold DotDims.rhsIdx
    rw [dif_neg (show ¬(1 : Fin Cert.ReferenceIdeal.S128x32.rank) ∈ Cert.ReferenceIdeal.dot_S100000x128_S128x32_S100000x32_1_0_0_1_n_n.rhsBatch by decide),
      dif_pos (show (1 : Fin Cert.ReferenceIdeal.S128x32.rank) ∈ Cert.ReferenceIdeal.dot_S100000x128_S128x32_S100000x32_1_0_0_1_n_n.rhsNonContracting by decide)]
    rfl

/-! ## The blocks -/

variable (V : (c : Dev nD) → (b : Ref sig .tc) → Buf (Elt Ideal) ((c : Thread nD τ).loc b))

/-- The printed index maps over the grid: the row windows sit at block row `t`, the weights' window at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point `t` is rows `20000 t …` of the features. -/
theorem xblk_apply (c : Dev nD) (t : Fin cfg0.N) (y : S20000x128.Idx) (z : S100000x128.Idx)
    (h0 : (z 0).val = 20000 * t.val + (y 0).val) (h1 : (z 1).val = (y 1).val) :
    (iblk0 V c 0 t : Vec Ideal S20000x128 .f32) y = (V c main_arg0 : S100000x128.Idx → Elt Ideal .f32) z := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 20000 + 1 * (y 0).val = (z 0).val; rw [e0, h0]; omega
  | ⟨1, _⟩ => show win0_0.index t 1 * 128 + 1 * (y 1).val = (z 1).val; rw [e1, h1]; omega

/-- The weights' block at every point is the weight matrix. -/
theorem wblk_apply (c : Dev nD) (t : Fin cfg0.N) (y : S128x32.Idx) :
    (iblk0 V c 1 t : Vec Ideal S128x32 .f32) y = (V c main_arg3 : S128x32.Idx → Elt Ideal .f32) y := by
  obtain ⟨-, -, e2, e3, -⟩ := idx_facts t
  unfold iblk0
  rw [View.read_apply]
  show V c main_arg3 _ = V c main_arg3 _
  congr 1
  funext a
  apply Fin.ext
  match a with
  | ⟨0, _⟩ => show win0_1.index t 0 * 128 + 1 * (y 0).val = (y 0).val; rw [e2]; omega
  | ⟨1, _⟩ => show win0_1.index t 1 * 32 + 1 * (y 1).val = (y 1).val; rw [e3]; omega

/-- What point `t` writes back is block `t` of the product of the whole arrays. -/
theorem flushed_eq (c : Dev nD) (t : Fin cfg0.N) :
    (dat0 V c).flushed 2 t = ((cfg0.win 2).blk t).view.read (Elt Ideal) (Cert.Gcn.layer1 (V c main_arg0) (V c main_arg3)) := by
  obtain ⟨-, -, -, -, e4, e5⟩ := idx_facts t
  show (cfg0.win 2).cut (grid0.coords t) ((dat0 V c).after 2 t) = _
  rw [after0_2]
  unfold out0_2
  rw [View.canon_unit_zero hz]
  simp only [View.ld_unit_zero (S := S20000x128) hz, View.ld_unit_zero (S := S128x32) hz]
  refine funext fun (j : S20000x32.Idx) => ?_
  have hp : 20000 * t.val + (j 0).val < 100000 := by
    have h1 := t.isLt; have h2 : cfg0.N = 5 := N_0; have h3 : (j 0).val < 20000 := (j 0).isLt; omega
  have hj : (((cfg0.win 2).blk t).view.emb j : S100000x32.Idx) = ix2 (⟨20000 * t.val + (j 0).val, hp⟩ : Fin 100000) (j 1) := by
    funext a
    apply Fin.ext
    match a with
    | ⟨0, _⟩ => show win0_2.index t 0 * 20000 + 1 * (j 0).val = 20000 * t.val + (j 0).val; rw [e4]; omega
    | ⟨1, _⟩ => show win0_2.index t 1 * 32 + 1 * (j 1).val = (j 1).val; rw [e5]; omega
  show k0_pay1 (iblk0 V c 0 t) (iblk0 V c 1 t) j = Cert.Gcn.layer1 (V c main_arg0) (V c main_arg3) (((cfg0.win 2).blk t).view.emb j)
  rw [hj]
  refine (congrArg (k0_pay1 (iblk0 V c 0 t) (iblk0 V c 1 t)) (eq_ix2 j)).trans ?_
  refine (pay_apply (iblk0 V c 0 t) (iblk0 V c 1 t) (j 0) (j 1)).trans ?_
  refine Eq.trans ?_ (layer1_apply (V c main_arg0) (V c main_arg3) (⟨20000 * t.val + (j 0).val, hp⟩ : Fin 100000) (j 1)).symm
  refine Finset.sum_congr rfl fun k _ => ?_
  exact congrArg₂ (· * ·)
    (xblk_apply V c t (ix2 (j 0) k) (ix2 (⟨20000 * t.val + (j 0).val, hp⟩ : Fin 100000) k) rfl rfl)
    (wblk_apply V c t (ix2 k (j 1)))

/-- An index of the result is in point `t`'s block iff each coordinate is in the block's range on its axis. -/
theorem mem_blk (t : Fin cfg0.N) (i : S100000x32.Idx) :
    i ∈ ((cfg0.win 2).blk t).view.set ↔ ∀ a : Fin 2, win0_2.index t a * S20000x32.size a ≤ (i a).val ∧ (i a).val < win0_2.index t a * S20000x32.size a + S20000x32.size a := by
  show i ∈ ((View.whole main_v4).slice (win0_2.rect t)).set ↔ _
  rw [View.set_slice_whole, Rect.mem_set_unit]
  exact Iff.rfl

/-- THE ARRAY the region leaves: the product of the whole arrays it found. -/
theorem final (c : Dev nD) : (dat0 V c).arrAt 2 cfg0.N = Cert.Gcn.layer1 (V c main_arg0) (V c main_arg3) :=
  (dat0 V c).arrAt_eq_of_cover 2 _ (fun t _ => flushed_eq V c t) fun i => by
    have hi0 : (i 0).val < 100000 := (i 0).isLt
    have hi1 : (i 1).val < 32 := (i 1).isLt
    have hN : cfg0.N = 5 := N_0
    let t : Fin cfg0.N := ⟨(i 0).val / 20000, by omega⟩
    have ht : t.val = (i 0).val / 20000 := rfl
    obtain ⟨-, -, -, -, e4, e5⟩ := idx_facts t
    refine ⟨t, flush0_2 t, ?_⟩
    rw [mem_blk]
    intro a
    match a with
    | ⟨0, _⟩ => show win0_2.index t 0 * 20000 ≤ (i 0).val ∧ (i 0).val < win0_2.index t 0 * 20000 + 20000; rw [e4, ht]; omega
    | ⟨1, _⟩ => show win0_2.index t 1 * 32 ≤ (i 1).val ∧ (i 1).val < win0_2.index t 1 * 32 + 32; rw [e5]; omega

end Cert.Gcn.Region0

end
-- ==== Proof.LibHostRowBroadcast.lean ====
/-
  Two host broadcasts read at an index given by coordinates.

  * a `[1, b]` row repeated along the rows by `broadcast_in_dim` with `dims = [0, 1]` holds, at `(p, c)`, the row's
    entry `(0, c)`, whatever the row `p` (the companion of the column form, `[a, 1]` to `[a, b]`);
  * a scalar (a rank-0 array) broadcast to any shape by `broadcast_in_dim` with `dims = []` holds the scalar at every
    index.
-/
import Idealize.ShloMosaic.Lib.ValueIdx
import Idealize.ShloMosaic.Lib.Pipeline.Value

noncomputable section

namespace Cert.HostRowBroadcast

open Idealize.ShloMosaic Idealize.ShloMosaic.ValueIdx

variable {α : Type}

/-- A row repeated along the rows: at `(p, c)` it holds the row's entry `(0, c)`. -/
theorem broadcastInDim_rows_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ =>
      show (0 : ℕ) = if (1 : ℕ) = 1 then 0 else p.val
      simp
    | ⟨1, _⟩ =>
      show c.val = if b = 1 then 0 else c.val
      split
      · have := c.isLt; omega
      · rfl

/-- A scalar broadcast to a shape `t`: at every index it holds the scalar. -/
theorem broadcastInDim_scalar_apply {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply _ h v i ix0 fun ax => ax.elim0

end Cert.HostRowBroadcast

end
-- ==== Proof.Region1.lean ====
/-
  Region 1: bias, cut at zero, second dense product, block by block.

  The kernel runs over five blocks of 20000 rows. At block `t` its body adds the bias row to rows `20000 t … 20000 t + 19999` of
  the aggregated first layer, cuts the negative entries at zero, multiplies by the whole second weight matrix into a zero
  accumulator, and writes the product back as the same rows of the result. Every step acts within a row, so the five
  write-backs together are `layer2` of the whole arrays.
-/
import proofs.«135168_j17489106829462_2_alg».proof.Proof.Gen.KernelIdeal.Frame
import proofs.«135168_j17489106829462_2_alg».proof.Proof.Spec
import proofs.«135168_j17489106829462_2_alg».proof.Proof.LibRowColDot
import proofs.«135168_j17489106829462_2_alg».proof.Proof.LibHostRowBroadcast
import Idealize.ShloMosaic.Lib.Pipeline.Value
import Idealize.ShloMosaic.Lib.ValueIdx
import Idealize.ShloMosaic.Lib.ValueLayout

noncomputable section

namespace Cert.Gcn.Region1

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

/-- The float word of zero, as an extended real. -/
abbrev zeroW : Ideal .f32 := Ideal.ofBits .f32 0x00000000#32

/-! ## The two products at an entry -/

/-- The body's hidden activation at `(p, k)` of a block. -/
theorem act_apply (ab : Vec Ideal S20000x32 .f32) (bb : Vec Ideal S1x32 .f32) (p : Fin 20000) (k : Fin 32) :
    maximumf (addf (shapeCast S20000x32 ab Facts₀.shapeCasts_S20000x32_S20000x32)
        (broadcastTo S20000x32 (shapeCast S1x32 bb Facts₀.shapeCasts_S1x32_S1x32) Facts₀.broadcasts_S1x32_S20000x32))
      (broadcast S20000x32 (Scalar.ofBits (F := Ideal) .f32 0x00000000#32)) (ix2 p k)
    = max (ab (ix2 p k) + bb (ix2 (0 : Fin 1) k)) zeroW := by
  rw [shapeCast_self, shapeCast_self]
  show max (ab (ix2 p k) + broadcastTo S20000x32 bb Facts₀.broadcasts_S1x32_S20000x32 (ix2 p k)) zeroW = _
  rw [broadcastTo_1b_ab_apply]

/-- The body's product at `(p, q)` of a block. -/
theorem pay_apply (ab : Vec Ideal S20000x32 .f32) (bb : Vec Ideal S1x32 .f32) (wb : Vec Ideal S32x40 .f32)
    (p : Fin 20000) (q : Fin 40) :
    k1_pay1 ab bb wb (ix2 p q) = ∑ k : Fin 32, max (ab (ix2 p k) + bb (ix2 (0 : Fin 1) k)) zeroW * wb (ix2 k q) := by
  unfold k1_pay1
  refine (Cert.RowColDot.matmul_rowcol dot_S20000x32_S32x40_S20000x40_1_0_0_1_n_n rfl rfl rfl rfl ?_ ?_ none _ wb (ix2 p q)).trans ?_
  · intro j r
    unfold DotDims.lhsIdx
    rw [dif_neg (show ¬(0 : Fin S20000x32.rank) ∈ dot_S20000x32_S32x40_S20000x40_1_0_0_1_n_n.lhsBatch by decide),
      dif_pos (show (0 : Fin S20000x32.rank) ∈ dot_S20000x32_S32x40_S20000x40_1_0_0_1_n_n.lhsNonContracting by decide)]
    rfl
  · intro j r
    unfold DotDims.rhsIdx
    rw [dif_neg (show ¬(1 : Fin S32x40.rank) ∈ dot_S20000x32_S32x40_S20000x40_1_0_0_1_n_n.rhsBatch by decide),
      dif_pos (show (1 : Fin S32x40.rank) ∈ dot_S20000x32_S32x40_S20000x40_1_0_0_1_n_n.rhsNonContracting by decide)]
    rfl
  · exact Finset.sum_congr rfl fun k _ => congrArg (· * wb (ix2 k q)) (act_apply ab bb p k)

/-- The whole arrays' hidden activation at `(i, k)`. -/
theorem hidden_apply (a : FVec Ideal Cert.ReferenceIdeal.S100000x32 .f32) (b : FVec Ideal Cert.ReferenceIdeal.S1x32 .f32)
    (i : Fin 100000) (k : Fin 32) :
    Cert.Gcn.hidden a b (ix2 i k) = max (a (ix2 i k) + b (ix2 (0 : Fin 1) k)) zeroW := by
  unfold Cert.Gcn.hidden
  show max (a (ix2 i k) + broadcastInDim Cert.ReferenceIdeal.S100000x32 ![0, 1] _ b (ix2 i k))
    (broadcastInDim Cert.ReferenceIdeal.S100000x32 ![] _ (constant (F := Ideal) Cert.ReferenceIdeal.S_ .f32 0x00000000#32) (ix2 i k)) = _
  rw [Cert.HostRowBroadcast.broadcastInDim_rows_apply, Cert.HostRowBroadcast.broadcastInDim_scalar_apply]
  rfl

/-- The whole product at `(i, q)`. -/
theorem layer2_apply (a : FVec Ideal Cert.ReferenceIdeal.S100000x32 .f32) (b : FVec Ideal Cert.ReferenceIdeal.S1x32 .f32)
    (w : FVec Ideal Cert.ReferenceIdeal.S32x40 .f32) (i : Fin 100000) (q : Fin 40) :
    Cert.Gcn.layer2 a b w (ix2 i q) = ∑ k : Fin 32, max (a (ix2 i k) + b (ix2 (0 : Fin 1) k)) zeroW * w (ix2 k q) := by
  unfold Cert.Gcn.layer2
  refine (Cert.RowColDot.hostDot_rowcol Cert.ReferenceIdeal.dot_S100000x32_S32x40_S100000x40_1_0_0_1_n_n rfl rfl rfl rfl ?_ ?_ none _ w (ix2 i q)).trans ?_
  · intro j r
    unfold DotDims.lhsIdx
    rw [dif_neg (show ¬(0 : Fin Cert.ReferenceIdeal.S100000x32.rank) ∈ Cert.ReferenceIdeal.dot_S100000x32_S32x40_S100000x40_1_0_0_1_n_n.lhsBatch by decide),
      dif_pos (show (0 : Fin Cert.ReferenceIdeal.S100000x32.rank) ∈ Cert.ReferenceIdeal.dot_S100000x32_S32x40_S100000x40_1_0_0_1_n_n.lhsNonContracting by decide)]
    rfl
  · intro j r
    unfold DotDims.rhsIdx
    rw [dif_neg (show ¬(1 : Fin Cert.ReferenceIdeal.S32x40.rank) ∈ Cert.ReferenceIdeal.dot_S100000x32_S32x40_S100000x40_1_0_0_1_n_n.rhsBatch by decide),
      dif_pos (show (1 : Fin Cert.ReferenceIdeal.S32x40.rank) ∈ Cert.ReferenceIdeal.dot_S100000x32_S32x40_S100000x40_1_0_0_1_n_n.rhsNonContracting by decide)]
    rfl
  · exact Finset.sum_congr rfl fun k _ => congrArg (· * w (ix2 k q)) (hidden_apply a b i k)

/-! ## The blocks -/

variable (V : (c : Dev nD) → (b : Ref sig .tc) → Buf (Elt Ideal) ((c : Thread nD τ).loc b))

/-- The printed index maps over the grid: the row windows sit at block row `t`, the bias and the weights at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The aggregate's block at point `t` is rows `20000 t …` of the aggregate. -/
theorem ablk_apply (c : Dev nD) (t : Fin cfg1.N) (y : S20000x32.Idx) (z : S100000x32.Idx)
    (h0 : (z 0).val = 20000 * t.val + (y 0).val) (h1 : (z 1).val = (y 1).val) :
    (iblk1 V c 0 t : Vec Ideal S20000x32 .f32) y = (V c main_v17 : S100000x32.Idx → Elt Ideal .f32) z := by
  obtain ⟨e0, e1, -⟩ := idx_facts t
  unfold iblk1
  rw [View.read_apply]
  show V c main_v17 _ = V c main_v17 _
  congr 1
  funext a
  apply Fin.ext
  match a with
  | ⟨0, _⟩ => show win1_0.index t 0 * 20000 + 1 * (y 0).val = (z 0).val; rw [e0, h0]; omega
  | ⟨1, _⟩ => show win1_0.index t 1 * 32 + 1 * (y 1).val = (z 1).val; rw [e1, h1]; omega

/-- The bias' block at every point is the bias row. -/
theorem bblk_apply (c : Dev nD) (t : Fin cfg1.N) (y : S1x32.Idx) :
    (iblk1 V c 1 t : Vec Ideal S1x32 .f32) y = (V c main_v18 : S1x32.Idx → Elt Ideal .f32) y := by
  obtain ⟨-, -, e2, e3, -⟩ := idx_facts t
  unfold iblk1
  rw [View.read_apply]
  show V c main_v18 _ = V c main_v18 _
  congr 1
  funext a
  apply Fin.ext
  match a with
  | ⟨0, _⟩ => show win1_1.index t 0 * 1 + 1 * (y 0).val = (y 0).val; rw [e2]; omega
  | ⟨1, _⟩ => show win1_1.index t 1 * 32 + 1 * (y 1).val = (y 1).val; rw [e3]; omega

/-- The weights' block at every point is the weight matrix. -/
theorem wblk_apply (c : Dev nD) (t : Fin cfg1.N) (y : S32x40.Idx) :
    (iblk1 V c 2 t : Vec Ideal S32x40 .f32) y = (V c main_arg5 : S32x40.Idx → Elt Ideal .f32) y := by
  obtain ⟨-, -, -, -, e4, e5, -⟩ := idx_facts t
  unfold iblk1
  rw [View.read_apply]
  show V c main_arg5 _ = V c main_arg5 _
  congr 1
  funext a
  apply Fin.ext
  match a with
  | ⟨0, _⟩ => show win1_2.index t 0 * 32 + 1 * (y 0).val = (y 0).val; rw [e4]; omega
  | ⟨1, _⟩ => show win1_2.index t 1 * 40 + 1 * (y 1).val = (y 1).val; rw [e5]; omega

/-- What point `t` writes back is block `t` of `layer2` of the whole arrays. -/
theorem flushed_eq (c : Dev nD) (t : Fin cfg1.N) :
    (dat1 V c).flushed 3 t = ((cfg1.win 3).blk t).view.read (Elt Ideal)
      (Cert.Gcn.layer2 (V c main_v17) (V c main_v18) (V c main_arg5)) := by
  obtain ⟨-, -, -, -, -, -, e6, e7⟩ := idx_facts t
  show (cfg1.win 3).cut (grid1.coords t) ((dat1 V c).after 3 t) = _
  rw [after1_3]
  unfold out1_3
  rw [View.canon_unit_zero hz]
  simp only [View.ld_unit_zero (S := S20000x32) hz, View.ld_unit_zero (S := S1x32) hz, View.ld_unit_zero (S := S32x40) hz]
  refine funext fun (j : S20000x40.Idx) => ?_
  have hp : 20000 * t.val + (j 0).val < 100000 := by
    have h1 := t.isLt; have h2 : cfg1.N = 5 := N_1; have h3 : (j 0).val < 20000 := (j 0).isLt; omega
  have hj : (((cfg1.win 3).blk t).view.emb j : S100000x40.Idx) = ix2 (⟨20000 * t.val + (j 0).val, hp⟩ : Fin 100000) (j 1) := by
    funext a
    apply Fin.ext
    match a with
    | ⟨0, _⟩ => show win1_3.index t 0 * 20000 + 1 * (j 0).val = 20000 * t.val + (j 0).val; rw [e6]; omega
    | ⟨1, _⟩ => show win1_3.index t 1 * 40 + 1 * (j 1).val = (j 1).val; rw [e7]; omega
  show k1_pay1 (iblk1 V c 0 t) (iblk1 V c 1 t) (iblk1 V c 2 t) j
    = Cert.Gcn.layer2 (V c main_v17) (V c main_v18) (V c main_arg5) (((cfg1.win 3).blk t).view.emb j)
  rw [hj]
  refine (congrArg (k1_pay1 (iblk1 V c 0 t) (iblk1 V c 1 t) (iblk1 V c 2 t)) (eq_ix2 j)).trans ?_
  refine (pay_apply (iblk1 V c 0 t) (iblk1 V c 1 t) (iblk1 V c 2 t) (j 0) (j 1)).trans ?_
  refine Eq.trans ?_ (layer2_apply (V c main_v17) (V c main_v18) (V c main_arg5) (⟨20000 * t.val + (j 0).val, hp⟩ : Fin 100000) (j 1)).symm
  refine Finset.sum_congr rfl fun k _ => ?_
  exact congrArg₂ (· * ·)
    (congrArg₂ (fun u v => max (u + v) zeroW)
      (ablk_apply V c t (ix2 (j 0) k) (ix2 (⟨20000 * t.val + (j 0).val, hp⟩ : Fin 100000) k) rfl rfl)
      (bblk_apply V c t (ix2 (0 : Fin 1) k)))
    (wblk_apply V c t (ix2 k (j 1)))

/-- An index of the result is in point `t`'s block iff each coordinate is in the block's range on its axis. -/
theorem mem_blk (t : Fin cfg1.N) (i : S100000x40.Idx) :
    i ∈ ((cfg1.win 3).blk t).view.set ↔ ∀ a : Fin 2, win1_3.index t a * S20000x40.size a ≤ (i a).val ∧ (i a).val < win1_3.index t a * S20000x40.size a + S20000x40.size a := by
  show i ∈ ((View.whole main_v19).slice (win1_3.rect t)).set ↔ _
  rw [View.set_slice_whole, Rect.mem_set_unit]
  exact Iff.rfl

/-- THE ARRAY the region leaves: `layer2` of the whole arrays it found. -/
theorem final (c : Dev nD) : (dat1 V c).arrAt 3 cfg1.N = Cert.Gcn.layer2 (V c main_v17) (V c main_v18) (V c main_arg5) :=
  (dat1 V c).arrAt_eq_of_cover 3 _ (fun t _ => flushed_eq V c t) fun i => by
    have hi0 : (i 0).val < 100000 := (i 0).isLt
    have hi1 : (i 1).val < 40 := (i 1).isLt
    have hN : cfg1.N = 5 := N_1
    let t : Fin cfg1.N := ⟨(i 0).val / 20000, by omega⟩
    have ht : t.val = (i 0).val / 20000 := rfl
    obtain ⟨-, -, -, -, -, -, e6, e7⟩ := idx_facts t
    refine ⟨t, flush1_3 t, ?_⟩
    rw [mem_blk]
    intro a
    match a with
    | ⟨0, _⟩ => show win1_3.index t 0 * 20000 ≤ (i 0).val ∧ (i 0).val < win1_3.index t 0 * 20000 + 20000; rw [e6, ht]; omega
    | ⟨1, _⟩ => show win1_3.index t 1 * 40 ≤ (i 1).val ∧ (i 1).val < win1_3.index t 1 * 40 + 40; rw [e7]; omega

end Cert.Gcn.Region1

end
-- ==== Proof.LibHostRowMax.lean ====
/-
  Three host operations on matrices, read at an index given by coordinates — the keepdims pieces of a row statistic
  computed on the host.

  * a host maximum over the columns of an `[a, n]` array of extended reals, read at row `p`, is the fold of `max`
    from the initial value over the entries `(p, k)`, `k : Fin n`;
  * an `[a, 1]` column repeated along the rows by `broadcast_in_dim` with `dims = [0, 1]` holds, at `(p, c)`, the
    column's entry `(p, 0)`, whatever the column `c`;
  * a `[b]` vector placed as the one row `[1, b]` by `broadcast_in_dim` with `dims = [1]` holds, at `(u, c)`, the
    vector's entry `c`.
-/
import Idealize.ShloMosaic.PureOps.Ideal.Laws
import Idealize.ShloMosaic.Lib.ValueIdx
import Idealize.ShloMosaic.Lib.Pipeline.Value

noncomputable section

namespace Cert.HostRowMax

open Idealize.ShloMosaic Idealize.ShloMosaic.ValueIdx

/-- Row `p` with the column coordinate `k` put back is the index `(p, k)`. -/
theorem lift_row {a n : ℕ} (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- A host maximum over the columns, read at row `p`: the fold of `max`, from the initial value, over that row's
    entries. -/
theorem hostReduceMax_row {a n : ℕ} {φ : FTy} (x : FVec Ideal ⟨2, ![a, n]⟩ φ) {u : Shape} (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce FloatOps.maximumf x init h' hu (ix1 p)
      = (Finset.univ : Finset (Fin n)).fold max (init (Shape.Idx.first hu)) (fun k => x (ix2 p k)) := by
  rw [Host.reduce_eq_fold_single FloatOps.maximumf x init h' h hu]
  exact congrArg (fun f => (Finset.univ : Finset (Fin n)).fold max (init (Shape.Idx.first hu)) f)
    (funext fun k => congrArg x (lift_row h p k))

variable {α : Type}

/-- A column repeated along the rows: at `(p, c)` it holds the column's entry `(p, 0)`. -/
theorem broadcastInDim_cols_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ =>
      show (0 : ℕ) = if (1 : ℕ) = 1 then 0 else c.val
      simp

/-- A vector placed as one row: at `(u, c)` it holds the vector's entry `c`. -/
theorem broadcastInDim_row_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply _ h v _ _ fun ax => by
    match ax with
    | ⟨0, _⟩ =>
      show c.val = if b = 1 then 0 else c.val
      split
      · have := c.isLt; omega
      · rfl

end Cert.HostRowMax

end
-- ==== Proof.LibHostRowReads.lean ====
/-
  Three host operations on matrices, read at an index given by coordinates.

  * a host sum over the columns of an `[a, n]` array of extended reals, read at row `p`, is the initial value plus the
    sum over `k : Fin n` of the entries `(p, k)`;
  * an `[a]` vector placed as the column `[a, 1]` by `broadcast_in_dim` along axis 0 holds, at `(p, u)`, entry `p`;
  * an `[a, n]` array padded with extra rows BELOW (no low padding, no interior padding, columns untouched) holds, at
    a row that is one of the operand's, the operand's entry.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.HostRowReads

open Idealize.ShloMosaic Idealize.ShloMosaic.ValueIdx

/-- A host sum over the columns, read at row `p`: the initial value plus that row's entries summed. -/
theorem hostReduceAdd_row {a n : ℕ} {φ : FTy} (x : FVec Ideal ⟨2, ![a, n]⟩ φ) {u : Shape} (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) (Finset.sum_congr rfl fun k _ => ?_)
  exact congrArg x (funext fun c => Fin.ext (by match c with | ⟨0, _⟩ => rfl | ⟨1, _⟩ => rfl))

variable {α : Type}

/-- A vector placed as a column: at `(p, u)` it holds the vector's entry `p`. -/
theorem broadcastInDim_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply _ h v _ _ fun ax => by
    match ax with
    | ⟨0, _⟩ =>
      show p.val = if a = 1 then 0 else p.val
      split
      · have := p.isLt; omega
      · rfl

/-- Rows appended below: at a row `c'` that is the operand's row `c`, the padded array holds the operand's entry. -/
theorem pad_rows_below_apply {a a' n e : ℕ} (x : (⟨2, ![a, n]⟩ : Shape).Idx → α) {u : Shape} (v : u.Idx → α)
    (h : (⟨2, ![a, n]⟩ : Shape).Pads (![0, 0] : Fin 2 → Nat) ![e, 0] ![0, 0] ⟨2, ![a', n]⟩) (hu : 0 < u.numel)
    (c : Fin a) (c' : Fin a') (hc : c'.val = c.val) (k : Fin n) :
    pad ⟨2, ![a', n]⟩ ![0, 0] ![e, 0] ![0, 0] x v h hu (ix2 c' k) = x (ix2 c k) :=
  pad_apply_of_inside _ _ _ x v h hu _ _ fun ax => by
    match ax with
    | ⟨0, _⟩ => show c'.val = 0 + c.val * (0 + 1); omega
    | ⟨1, _⟩ => show k.val = 0 + k.val * (0 + 1); omega

end Cert.HostRowReads

end
-- ==== Proof.LibColumnBroadcast.lean ====
/-
  A column broadcast along its rows, read at an index given by coordinates: an `[a, 1]` array broadcast to `[a, b]`
  holds, at `(p, c)`, the column's entry `p` — the value does not depend on the column coordinate `c`. The
  companion of the row form (`[1, b]` to `[a, b]`, which does not depend on the row coordinate).
-/
import Idealize.ShloMosaic.Lib.Pipeline.Value
import Idealize.ShloMosaic.Lib.ValueIdx

namespace Cert.WeightUpdate.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.WeightUpdate.Layout
-- ==== Proof.LibUnitAxisSums.lean ====
/-
  General lemmas about unit axes and sums over index sets, independent of any program.

  * `shapeCast_a_a1_apply`: a vector of length `a` viewed as a column `[a, 1]` (a row reduction kept with
    `keepdims=True`) reads, at `(i, u)`, the vector's entry `i`.
  * `sum_idx1`: a sum over the index set of a rank-1 shape `[n]` is the sum over `Fin n`.
  * `sum_idx_1n1`: a sum over the index set of the shape `[1, n, 1]` is the sum over its middle coordinate.
  * `sum_fin_blocks`: a sum over `Fin (q * n)` cut into `q` consecutive blocks of `n`:
    `∑ i, g i = ∑ b, ∑ r, g (n * b + r)`.
-/
import Idealize.ShloMosaic.Lib.Pipeline.Value
import Idealize.ShloMosaic.Lib.ValueIdx

noncomputable section

open scoped BigOperators

namespace Idealize.ShloMosaic.ValueIdx

open Idealize.ShloMosaic

variable {α : Type}

/-- An `[a]` array cast to the column `[a, 1]` reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index set of the rank-1 shape `[n]` is `Fin n` … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

/-- The index set of the shape `[1, n, 1]` is `Fin n`: the two unit coordinates are `0`. -/
def idxEquiv_1n1 {n : Nat} : (⟨3, ![1, n, 1]⟩ : Shape).Idx ≃ Fin n where
  toFun i := i 1
  invFun r := ix3 (0 : Fin 1) r (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idx_1n1 {M : Type*} [AddCommMonoid M] {n : Nat} (f : (⟨3, ![1, n, 1]⟩ : Shape).Idx → M) :
    ∑ i, f i = ∑ r : Fin n, f (ix3 (0 : Fin 1) r (0 : Fin 1)) := by
  rw [← Equiv.sum_comp (idxEquiv_1n1 (n := n)).symm f]
  rfl

/-- A sum over `q * n` consecutive positions, cut into `q` blocks of `n`. -/
theorem sum_fin_blocks {M : Type*} [AddCommMonoid M] (q n : Nat) (g : Fin (q * n) → M) :
    ∑ i, g i = ∑ b : Fin q, ∑ r : Fin n, g ⟨n * b.val + r.val, by
      have hb := b.isLt; have hr := r.isLt
      calc n * b.val + r.val < n * b.val + n := by omega
        _ = n * (b.val + 1) := by ring
        _ ≤ n * q := Nat.mul_le_mul_left n hb
        _ = q * n := Nat.mul_comm n q⟩ := by
  rw [← Equiv.sum_comp (finProdFinEquiv : Fin q × Fin n ≃ Fin (q * n)) g, Fintype.sum_prod_type]
  refine Finset.sum_congr rfl fun b _ => Finset.sum_congr rfl fun r _ => congrArg g (Fin.ext ?_)
  show r.val + n * b.val = n * b.val + r.val
  omega

end Idealize.ShloMosaic.ValueIdx

end
-- ==== Proof.LibLogSoftmaxRows.lean ====
/-
  The logarithm of a softmax along the rows of a matrix, in its two spellings, read at an entry on the extended reals.

  For a row `ℓ : Fin n → EReal` put `M = max (−∞ word) (max_j ℓ j)` (the fold of `max` from the float word of `−∞`) and
    logSoftmaxRow ℓ q = (ℓ q − M) − log (Σ_j exp (ℓ j − M)).
  * On the host: a `reduce` with `maximum` from `−∞`, one more `maximum` with `−∞` (the identity on a fold that starts there), the
    result placed as a column and repeated along the rows, subtracted; `exponential`; a `reduce` with `add` from the zero word (`0 + Σ`);
    `log` of the column; subtracted.
  * In a kernel body: a lane maximum from `−∞`, cast to a column and broadcast along the rows, subtracted; `exp`; a lane sum; `log`
    of the column, broadcast, subtracted.
  Both read, at `(r, q)`, `logSoftmaxRow` of row `r`.
-/
import proofs.«135168_j17489106829462_2_alg».proof.Proof.LibHostRowMax
import proofs.«135168_j17489106829462_2_alg».proof.Proof.LibHostRowReads
import proofs.«135168_j17489106829462_2_alg».proof.Proof.LibHostRowBroadcast
import proofs.«135168_j17489106829462_2_alg».proof.Proof.LibColumnBroadcast
import proofs.«135168_j17489106829462_2_alg».proof.Proof.LibUnitAxisSums
import Idealize.ShloMosaic.PureOps.Ideal.Laws
import Idealize.ShloMosaic.Lib.ValueIdx
import Idealize.ShloMosaic.Lib.Pipeline.Value

noncomputable section

namespace Cert.LogSoftmaxRows

open Idealize.ShloMosaic Idealize.ShloMosaic.ValueIdx

/-- The float word of `−∞`, as an extended real. -/
abbrev negInf : Ideal .f32 := Ideal.ofBits .f32 0xFF800000#32

/-- A row's maximum, folded from `−∞`. -/
def rowMax {n : ℕ} (ℓ : Fin n → Ideal .f32) : Ideal .f32 := (Finset.univ : Finset (Fin n)).fold max negInf ℓ

/-- The logarithm of the softmax of a row, at position `q`. -/
def logSoftmaxRow {n : ℕ} (ℓ : Fin n → Ideal .f32) (q : Fin n) : Ideal .f32 :=
  (ℓ q - rowMax ℓ) - Ideal.log (∑ j : Fin n, Ideal.exp (ℓ j - rowMax ℓ))

/-- One more maximum with the value a fold of `max` started from changes nothing. -/
theorem max_fold_self {n : ℕ} (a : Ideal .f32) (f : Fin n → Ideal .f32) :
    max a ((Finset.univ : Finset (Fin n)).fold max a f) = (Finset.univ : Finset (Fin n)).fold max a f :=
  max_eq_right ((Finset.le_fold_max (s := Finset.univ) (f := f) (b := a) (c := a)).2 (Or.inl le_rfl))

/-- The host's spelling at `(r, q)`. -/
theorem host_apply {N n : ℕ} (L : FVec Ideal ⟨2, ![N, n]⟩ .f32)
    (hmax : (⟨2, ![N, n]⟩ : Shape).ReducesTo [1] ⟨1, ![N]⟩) (hred : (⟨2, ![N, n]⟩ : Shape).Reduces [1] ⟨1, ![N]⟩)
    (hu : 0 < (⟨0, ![]⟩ : Shape).numel)
    (hs : (⟨0, ![]⟩ : Shape).BroadcastsInDim ⟨1, ![N]⟩ (![] : Fin 0 → Fin 1))
    (hc : (⟨1, ![N]⟩ : Shape).BroadcastsInDim ⟨2, ![N, 1]⟩ (![0] : Fin 1 → Fin 2))
    (hb : (⟨2, ![N, 1]⟩ : Shape).BroadcastsInDim ⟨2, ![N, n]⟩ (![0, 1] : Fin 2 → Fin 2))
    (M : FVec Ideal ⟨1, ![N]⟩ .f32) (S : FVec Ideal ⟨2, ![N, n]⟩ .f32) (Z : FVec Ideal ⟨1, ![N]⟩ .f32)
    (hM : M = maximumf (broadcastInDim ⟨1, ![N]⟩ ![] hs (constant (F := Ideal) ⟨0, ![]⟩ .f32 0xFF800000#32))
      (Host.reduce FloatOps.maximumf L (constant (F := Ideal) ⟨0, ![]⟩ .f32 0xFF800000#32) hmax hu))
    (hS : S = subf L (broadcastInDim ⟨2, ![N, n]⟩ ![0, 1] hb (broadcastInDim ⟨2, ![N, 1]⟩ ![0] hc M)))
    (hZ : Z = Host.reduceAdd (Host.exp S) (constant (F := Ideal) ⟨0, ![]⟩ .f32 0x00000000#32) hmax hu)
    (r : Fin N) (q : Fin n) :
    subf S (broadcastInDim ⟨2, ![N, n]⟩ ![0, 1] hb (Host.log (broadcastInDim ⟨2, ![N, 1]⟩ ![0] hc Z))) (ix2 r q)
      = logSoftmaxRow (fun j => L (ix2 r j)) q := by
  have eM : M (ix1 r) = rowMax (fun j => L (ix2 r j)) := by
    rw [hM]
    show max (broadcastInDim ⟨1, ![N]⟩ ![] hs (constant (F := Ideal) ⟨0, ![]⟩ .f32 0xFF800000#32) (ix1 r))
      (Host.reduce FloatOps.maximumf L (constant (F := Ideal) ⟨0, ![]⟩ .f32 0xFF800000#32) hmax hu (ix1 r)) = _
    rw [Cert.HostRowBroadcast.broadcastInDim_scalar_apply, Cert.HostRowMax.hostReduceMax_row L _ hmax hred hu r]
    exact max_fold_self _ _
  have eS : ∀ j : Fin n, S (ix2 r j) = L (ix2 r j) - rowMax (fun j => L (ix2 r j)) := by
    intro j
    rw [hS]
    show L (ix2 r j) - broadcastInDim ⟨2, ![N, n]⟩ ![0, 1] hb (broadcastInDim ⟨2, ![N, 1]⟩ ![0] hc M) (ix2 r j) = _
    rw [Cert.HostRowMax.broadcastInDim_cols_apply, Cert.HostRowReads.broadcastInDim_col_apply, eM]
  have eZ : Z (ix1 r) = ∑ j : Fin n, Ideal.exp (L (ix2 r j) - rowMax (fun j => L (ix2 r j))) := by
    rw [hZ, Cert.HostRowReads.hostReduceAdd_row (Host.exp S) _ hmax hred hu r]
    show Ideal.ofBits .f32 0x00000000#32 + ∑ j : Fin n, Ideal.exp (S (ix2 r j)) = _
    rw [Ideal.ofBits_zero_f32, zero_add]
    exact Finset.sum_congr rfl fun j _ => congrArg Ideal.exp (eS j)
  show S (ix2 r q) - broadcastInDim ⟨2, ![N, n]⟩ ![0, 1] hb (Host.log (broadcastInDim ⟨2, ![N, 1]⟩ ![0] hc Z)) (ix2 r q) = _
  rw [Cert.HostRowMax.broadcastInDim_cols_apply]
  show S (ix2 r q) - Ideal.log (broadcastInDim ⟨2, ![N, 1]⟩ ![0] hc Z (ix2 r (0 : Fin 1))) = _
  rw [Cert.HostRowReads.broadcastInDim_col_apply, eS q, eZ]
  rfl

/-- The kernel body's spelling at `(p, q)`. -/
theorem kernel_apply {a n : ℕ} (L : FVec Ideal ⟨2, ![a, n]⟩ .f32)
    (hred : (⟨2, ![a, n]⟩ : Shape).Reduces [1] ⟨1, ![a]⟩) (hφ : FKind.Formats .f32)
    (hmaxacc : (0xFF800000#32 : BitVec 32) = FKind.maximumf.neutral .f32 hφ)
    (haddacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩)
    (M : FVec Ideal ⟨1, ![a]⟩ .f32) (S : FVec Ideal ⟨2, ![a, n]⟩ .f32) (Z : FVec Ideal ⟨1, ![a]⟩ .f32)
    (hM : M = multiReduction .maximumf [1] ⟨1, ![a]⟩ L 0xFF800000#32 hred hφ hmaxacc)
    (hS : S = subf L (broadcastTo ⟨2, ![a, n]⟩ (shapeCast ⟨2, ![a, 1]⟩ M hc) hb))
    (hZ : Z = multiReduction .add [1] ⟨1, ![a]⟩ (exp S) 0x00000000#32 hred hφ haddacc)
    (p : Fin a) (q : Fin n) :
    subf S (broadcastTo ⟨2, ![a, n]⟩ (log (shapeCast ⟨2, ![a, 1]⟩ Z hc)) hb) (ix2 p q)
      = logSoftmaxRow (fun j => L (ix2 p j)) q := by
  have eM : M (ix1 p) = rowMax (fun j => L (ix2 p j)) := by
    rw [hM, Ideal.multiReduction_maximumf_single]
    exact congrArg (fun f => (Finset.univ : Finset (Fin n)).fold max negInf f)
      (funext fun k => congrArg L (Cert.HostRowMax.lift_row hred p k))
  have eS : ∀ j : Fin n, S (ix2 p j) = L (ix2 p j) - rowMax (fun j => L (ix2 p j)) := by
    intro j
    rw [hS]
    show L (ix2 p j) - broadcastTo ⟨2, ![a, n]⟩ (shapeCast ⟨2, ![a, 1]⟩ M hc) hb (ix2 p j) = _
    rw [Cert.WeightUpdate.Layout.broadcastTo_a1_ab_apply, shapeCast_a_a1_apply, eM]
  have eZ : Z (ix1 p) = ∑ j : Fin n, Ideal.exp (L (ix2 p j) - rowMax (fun j => L (ix2 p j))) := by
    rw [hZ, Ideal.multiReduction_add_single]
    refine Finset.sum_congr rfl fun k _ => ?_
    show Ideal.exp (S (hred.lift (ix1 p) k)) = _
    rw [Cert.HostRowMax.lift_row hred p k]
    exact congrArg Ideal.exp (eS _)
  show S (ix2 p q) - broadcastTo ⟨2, ![a, n]⟩ (log (shapeCast ⟨2, ![a, 1]⟩ Z hc)) hb (ix2 p q) = _
  rw [Cert.WeightUpdate.Layout.broadcastTo_a1_ab_apply]
  show S (ix2 p q) - Ideal.log (shapeCast ⟨2, ![a, 1]⟩ Z hc (ix2 p (0 : Fin 1))) = _
  rw [shapeCast_a_a1_apply, eS q, eZ]
  rfl

end Cert.LogSoftmaxRows

end
-- ==== Proof.LibLogSoftmaxClamped.lean ====
/-
  The kernel-body spelling of a row-wise log-softmax in which the lane maximum is clamped once more from below by `−∞`.

  Some kernel bodies take the lane maximum from `−∞` and then the maximum of that with a splat of `−∞` before casting it to a column.
  A fold of `max` that starts at `−∞` is already at least `−∞`, so the extra step changes nothing, and the body reads, at `(p, q)`, the
  logarithm of the softmax of row `p` — the normal form `logSoftmaxRow` of the two spellings without the extra step.
-/
import proofs.«135168_j17489106829462_2_alg».proof.Proof.LibLogSoftmaxRows

noncomputable section

namespace Cert.LogSoftmaxRows

open Idealize.ShloMosaic Idealize.ShloMosaic.ValueIdx

/-- The kernel body's spelling with ANY vector of row maxima `M` that is, entry by entry, the row's fold of `max` from `−∞`. -/
theorem kernel_apply_of_rowMax {a n : ℕ} (L : FVec Ideal ⟨2, ![a, n]⟩ .f32)
    (hred : (⟨2, ![a, n]⟩ : Shape).Reduces [1] ⟨1, ![a]⟩) (hφ : FKind.Formats .f32)
    (haddacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩)
    (M : FVec Ideal ⟨1, ![a]⟩ .f32) (S : FVec Ideal ⟨2, ![a, n]⟩ .f32) (Z : FVec Ideal ⟨1, ![a]⟩ .f32)
    (hM : ∀ p : Fin a, M (ix1 p) = rowMax (fun j => L (ix2 p j)))
    (hS : S = subf L (broadcastTo ⟨2, ![a, n]⟩ (shapeCast ⟨2, ![a, 1]⟩ M hc) hb))
    (hZ : Z = multiReduction .add [1] ⟨1, ![a]⟩ (exp S) 0x00000000#32 hred hφ haddacc)
    (p : Fin a) (q : Fin n) :
    subf S (broadcastTo ⟨2, ![a, n]⟩ (log (shapeCast ⟨2, ![a, 1]⟩ Z hc)) hb) (ix2 p q)
      = logSoftmaxRow (fun j => L (ix2 p j)) q := by
  have eS : ∀ j : Fin n, S (ix2 p j) = L (ix2 p j) - rowMax (fun j => L (ix2 p j)) := by
    intro j
    rw [hS]
    show L (ix2 p j) - broadcastTo ⟨2, ![a, n]⟩ (shapeCast ⟨2, ![a, 1]⟩ M hc) hb (ix2 p j) = _
    rw [Cert.WeightUpdate.Layout.broadcastTo_a1_ab_apply, shapeCast_a_a1_apply, hM p]
  have eZ : Z (ix1 p) = ∑ j : Fin n, Ideal.exp (L (ix2 p j) - rowMax (fun j => L (ix2 p j))) := by
    rw [hZ, Ideal.multiReduction_add_single]
    refine Finset.sum_congr rfl fun k _ => ?_
    show Ideal.exp (S (hred.lift (ix1 p) k)) = _
    rw [Cert.HostRowMax.lift_row hred p k]
    exact congrArg Ideal.exp (eS _)
  show S (ix2 p q) - broadcastTo ⟨2, ![a, n]⟩ (log (shapeCast ⟨2, ![a, 1]⟩ Z hc)) hb (ix2 p q) = _
  rw [Cert.WeightUpdate.Layout.broadcastTo_a1_ab_apply]
  show S (ix2 p q) - Ideal.log (shapeCast ⟨2, ![a, 1]⟩ Z hc (ix2 p (0 : Fin 1))) = _
  rw [shapeCast_a_a1_apply, eS q, eZ]
  rfl

/-- The lane maximum from `−∞`, clamped once more from below by a splat of `−∞`, is the row's fold of `max` from `−∞`. -/
theorem clamped_laneMax {a n : ℕ} (L : FVec Ideal ⟨2, ![a, n]⟩ .f32)
    (hred : (⟨2, ![a, n]⟩ : Shape).Reduces [1] ⟨1, ![a]⟩) (hφ : FKind.Formats .f32)
    (hmaxacc : (0xFF800000#32 : BitVec 32) = FKind.maximumf.neutral .f32 hφ) (p : Fin a) :
    maximumf (broadcast (⟨1, ![a]⟩ : Shape) (Scalar.ofBits (F := Ideal) .f32 0xFF800000#32))
        (multiReduction .maximumf [1] ⟨1, ![a]⟩ L 0xFF800000#32 hred hφ hmaxacc) (ix1 p)
      = rowMax (fun j => L (ix2 p j)) := by
  show max negInf (multiReduction .maximumf [1] ⟨1, ![a]⟩ L 0xFF800000#32 hred hφ hmaxacc (ix1 p)) = _
  rw [Ideal.multiReduction_maximumf_single]
  exact (congrArg (max negInf) (congrArg (fun f => (Finset.univ : Finset (Fin n)).fold max negInf f)
    (funext fun k => congrArg L (Cert.HostRowMax.lift_row hred p k)))).trans (max_fold_self _ _)

end Cert.LogSoftmaxRows

end
-- ==== Proof.Region2.lean ====
/-
  Region 2: bias and the logarithm of the softmax, block by block.

  The kernel runs over five blocks of 20000 rows. At block `t` its body adds the bias row to rows `20000 t … 20000 t + 19999` of
  the aggregated second layer and takes the logarithm of the softmax of each row: lane maximum from `−∞` (clamped once more by
  `−∞`), subtract, exponential, lane sum, logarithm, subtract. A row's log-softmax depends on that row only, so the five
  write-backs together are the host's row-wise log-softmax of the whole logits.
-/
import proofs.«135168_j17489106829462_2_alg».proof.Proof.Gen.KernelIdeal.Frame
import proofs.«135168_j17489106829462_2_alg».proof.Proof.Spec
import proofs.«135168_j17489106829462_2_alg».proof.Proof.LibLogSoftmaxRows
import proofs.«135168_j17489106829462_2_alg».proof.Proof.LibLogSoftmaxClamped
import proofs.«135168_j17489106829462_2_alg».proof.Proof.LibHostRowBroadcast
import Idealize.ShloMosaic.Lib.Pipeline.Value
import Idealize.ShloMosaic.Lib.ValueIdx
import Idealize.ShloMosaic.Lib.ValueLayout

noncomputable section

namespace Cert.Gcn.Region2

open Idealize.ShloMosaic Idealize.ShloMosaic.TcCoe Idealize.SL.Sem Idealize.ShloMosaic.ValueIdx
open Idealize.ShloMosaic.Pipeline (Dat)
open Cert.KernelIdeal Cert.KernelIdeal.Gen Cert.LogSoftmaxRows

theorem hz : (![0, 0] : Fin 2 → Nat) = fun _ => 0 := funext fun a => by fin_cases a <;> rfl

/-! ## The two spellings at an entry -/

/-- A block's logits: the bias row added to the block. -/
def blkLogits (ab : Vec Ideal S20000x40 .f32) (bb : Vec Ideal S1x40 .f32) : FVec Ideal S20000x40 .f32 :=
  addf (shapeCast S20000x40 ab Facts₀.shapeCasts_S20000x40_S20000x40)
    (broadcastTo S20000x40 (shapeCast S1x40 bb Facts₀.shapeCasts_S1x40_S1x40) Facts₀.broadcasts_S1x40_S20000x40)

theorem blkLogits_apply (ab : Vec Ideal S20000x40 .f32) (bb : Vec Ideal S1x40 .f32) (p : Fin 20000) (j : Fin 40) :
    blkLogits ab bb (ix2 p j) = ab (ix2 p j) + bb (ix2 (0 : Fin 1) j) := by
  unfold blkLogits
  rw [shapeCast_self, shapeCast_self]
  show ab (ix2 p j) + broadcastTo S20000x40 bb Facts₀.broadcasts_S1x40_S20000x40 (ix2 p j) = _
  rw [broadcastTo_1b_ab_apply]

/-- A block's row maxima, as the body spells them. -/
def blkMax (L : FVec Ideal S20000x40 .f32) : FVec Ideal S20000 .f32 :=
  maximumf (broadcast S20000 (Scalar.ofBits (F := Ideal) .f32 0xFF800000#32))
    (multiReduction .maximumf [1] S20000 L 0xFF800000#32 Facts₀.reduces_S20000x40_S20000 (.inl rfl) rfl)

/-- A block's rows shifted by their maxima. -/
def blkShift (L : FVec Ideal S20000x40 .f32) : FVec Ideal S20000x40 .f32 :=
  subf L (broadcastTo S20000x40 (shapeCast S20000x1 (blkMax L) Facts₀.shapeCasts_S20000_S20000x1) Facts₀.broadcasts_S20000x1_S20000x40)

/-- A block's row sums of exponentials. -/
def blkSum (L : FVec Ideal S20000x40 .f32) : FVec Ideal S20000 .f32 :=
  multiReduction .add [1] S20000 (exp (blkShift L)) 0x00000000#32 Facts₀.reduces_S20000x40_S20000 (.inl rfl) rfl

/-- The body's value at `(p, q)` of a block: the log-softmax of row `p` of the block's logits. -/
theorem pay_apply (ab : Vec Ideal S20000x40 .f32) (bb : Vec Ideal S1x40 .f32) (p : Fin 20000) (q : Fin 40) :
    k2_pay1 ab bb (ix2 p q) = logSoftmaxRow (fun j => ab (ix2 p j) + bb (ix2 (0 : Fin 1) j)) q := by
  have h := kernel_apply_of_rowMax (a := 20000) (n := 40) (blkLogits ab bb) Facts₀.reduces_S20000x40_S20000 (.inl rfl) rfl
    Facts₀.shapeCasts_S20000_S20000x1 Facts₀.broadcasts_S20000x1_S20000x40 (blkMax (blkLogits ab bb)) (blkShift (blkLogits ab bb))
    (blkSum (blkLogits ab bb))
    (fun p => clamped_laneMax (a := 20000) (n := 40) (blkLogits ab bb) Facts₀.reduces_S20000x40_S20000 (.inl rfl) rfl p) rfl rfl p q
  refine Eq.trans ?_ (h.trans ?_)
  · rfl
  · exact congrArg (fun f => logSoftmaxRow f q) (funext fun j => blkLogits_apply ab bb p j)

/-- The whole logits at `(i, j)`. -/
theorem logits_apply (a : FVec Ideal Cert.ReferenceIdeal.S100000x40 .f32) (b : FVec Ideal Cert.ReferenceIdeal.S1x40 .f32)
    (i : Fin 100000) (j : Fin 40) : Cert.Gcn.logits a b (ix2 i j) = a (ix2 i j) + b (ix2 (0 : Fin 1) j) := by
  unfold Cert.Gcn.logits
  show a (ix2 i j) + broadcastInDim Cert.ReferenceIdeal.S100000x40 ![0, 1] _ b (ix2 i j) = _
  rw [Cert.HostRowBroadcast.broadcastInDim_rows_apply]

theorem reduces_whole : Cert.ReferenceIdeal.S100000x40.Reduces [1] Cert.ReferenceIdeal.S100000 := by decide

/-- The host's value at `(i, q)`: the log-softmax of row `i` of the whole logits. -/
theorem lsm_apply (a : FVec Ideal Cert.ReferenceIdeal.S100000x40 .f32) (b : FVec Ideal Cert.ReferenceIdeal.S1x40 .f32)
    (i : Fin 100000) (q : Fin 40) :
    Cert.Gcn.lsm (Cert.Gcn.logits a b) (ix2 i q) = logSoftmaxRow (fun j => a (ix2 i j) + b (ix2 (0 : Fin 1) j)) q := by
  have h := host_apply (N := 100000) (n := 40) (Cert.Gcn.logits a b) Cert.ReferenceIdeal.Facts₀.reducesTo_S100000x40_S100000_d1 reduces_whole
    Cert.ReferenceIdeal.Facts₀.h_S_ Cert.ReferenceIdeal.Facts₀.bcast_S_S100000 Cert.ReferenceIdeal.Facts₀.bcast_S100000_S100000x1_0
    Cert.ReferenceIdeal.Facts₀.bcast_S100000x1_S100000x40_0_1
    (Cert.Gcn.lsmMax (Cert.Gcn.logits a b)) (Cert.Gcn.lsmShift (Cert.Gcn.logits a b)) (Cert.Gcn.lsmSum (Cert.Gcn.logits a b)) rfl rfl rfl i q
  refine Eq.trans ?_ (h.trans ?_)
  · rfl
  · exact congrArg (fun f => logSoftmaxRow f q) (funext fun j => logits_apply a b i j)

/-! ## The blocks -/

variable (V : (c : Dev nD) → (b : Ref sig .tc) → Buf (Elt Ideal) ((c : Thread nD τ).loc b))

/-- The printed index maps over the grid: the row windows sit at block row `t`, the bias at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The aggregate's block at point `t` is rows `20000 t …` of the aggregate. -/
theorem ablk_apply (c : Dev nD) (t : Fin cfg2.N) (y : S20000x40.Idx) (z : S100000x40.Idx)
    (h0 : (z 0).val = 20000 * t.val + (y 0).val) (h1 : (z 1).val = (y 1).val) :
    (iblk2 V c 0 t : Vec Ideal S20000x40 .f32) y = (V c main_v32 : S100000x40.Idx → Elt Ideal .f32) z := by
  obtain ⟨e0, e1, -⟩ := idx_facts t
  unfold iblk2
  rw [View.read_apply]
  show V c main_v32 _ = V c main_v32 _
  congr 1
  funext a
  apply Fin.ext
  match a with
  | ⟨0, _⟩ => show win2_0.index t 0 * 20000 + 1 * (y 0).val = (z 0).val; rw [e0, h0]; omega
  | ⟨1, _⟩ => show win2_0.index t 1 * 40 + 1 * (y 1).val = (z 1).val; rw [e1, h1]; omega

/-- The bias' block at every point is the bias row. -/
theorem bblk_apply (c : Dev nD) (t : Fin cfg2.N) (y : S1x40.Idx) :
    (iblk2 V c 1 t : Vec Ideal S1x40 .f32) y = (V c main_v33 : S1x40.Idx → Elt Ideal .f32) y := by
  obtain ⟨-, -, e2, e3, -⟩ := idx_facts t
  unfold iblk2
  rw [View.read_apply]
  show V c main_v33 _ = V c main_v33 _
  congr 1
  funext a
  apply Fin.ext
  match a with
  | ⟨0, _⟩ => show win2_1.index t 0 * 1 + 1 * (y 0).val = (y 0).val; rw [e2]; omega
  | ⟨1, _⟩ => show win2_1.index t 1 * 40 + 1 * (y 1).val = (y 1).val; rw [e3]; omega

/-- What point `t` writes back is block `t` of the row-wise log-softmax of the whole logits. -/
theorem flushed_eq (c : Dev nD) (t : Fin cfg2.N) :
    (dat2 V c).flushed 2 t = ((cfg2.win 2).blk t).view.read (Elt Ideal)
      (Cert.Gcn.lsm (Cert.Gcn.logits (V c main_v32) (V c main_v33))) := by
  obtain ⟨-, -, -, -, e4, e5⟩ := idx_facts t
  show (cfg2.win 2).cut (grid2.coords t) ((dat2 V c).after 2 t) = _
  rw [after2_2]
  unfold out2_2
  rw [View.canon_unit_zero hz]
  simp only [View.ld_unit_zero (S := S20000x40) hz, View.ld_unit_zero (S := S1x40) hz]
  refine funext fun (j : S20000x40.Idx) => ?_
  have hp : 20000 * t.val + (j 0).val < 100000 := by
    have h1 := t.isLt; have h2 : cfg2.N = 5 := N_2; have h3 : (j 0).val < 20000 := (j 0).isLt; omega
  have hj : (((cfg2.win 2).blk t).view.emb j : S100000x40.Idx) = ix2 (⟨20000 * t.val + (j 0).val, hp⟩ : Fin 100000) (j 1) := by
    funext a
    apply Fin.ext
    match a with
    | ⟨0, _⟩ => show win2_2.index t 0 * 20000 + 1 * (j 0).val = 20000 * t.val + (j 0).val; rw [e4]; omega
    | ⟨1, _⟩ => show win2_2.index t 1 * 40 + 1 * (j 1).val = (j 1).val; rw [e5]; omega
  show k2_pay1 (iblk2 V c 0 t) (iblk2 V c 1 t) j
    = Cert.Gcn.lsm (Cert.Gcn.logits (V c main_v32) (V c main_v33)) (((cfg2.win 2).blk t).view.emb j)
  rw [hj]
  refine (congrArg (k2_pay1 (iblk2 V c 0 t) (iblk2 V c 1 t)) (eq_ix2 j)).trans ?_
  refine (pay_apply (iblk2 V c 0 t) (iblk2 V c 1 t) (j 0) (j 1)).trans ?_
  refine Eq.trans ?_ (lsm_apply (V c main_v32) (V c main_v33) (⟨20000 * t.val + (j 0).val, hp⟩ : Fin 100000) (j 1)).symm
  refine congrArg (fun f => logSoftmaxRow f (j 1)) (funext fun k => ?_)
  exact congrArg₂ (· + ·)
    (ablk_apply V c t (ix2 (j 0) k) (ix2 (⟨20000 * t.val + (j 0).val, hp⟩ : Fin 100000) k) rfl rfl)
    (bblk_apply V c t (ix2 (0 : Fin 1) k))

/-- An index of the result is in point `t`'s block iff each coordinate is in the block's range on its axis. -/
theorem mem_blk (t : Fin cfg2.N) (i : S100000x40.Idx) :
    i ∈ ((cfg2.win 2).blk t).view.set ↔ ∀ a : Fin 2, win2_2.index t a * S20000x40.size a ≤ (i a).val ∧ (i a).val < win2_2.index t a * S20000x40.size a + S20000x40.size a := by
  show i ∈ ((View.whole main_v34).slice (win2_2.rect t)).set ↔ _
  rw [View.set_slice_whole, Rect.mem_set_unit]
  exact Iff.rfl

/-- THE ARRAY the region leaves: the row-wise log-softmax of the logits of the whole arrays it found. -/
theorem final (c : Dev nD) : (dat2 V c).arrAt 2 cfg2.N = Cert.Gcn.lsm (Cert.Gcn.logits (V c main_v32) (V c main_v33)) :=
  (dat2 V c).arrAt_eq_of_cover 2 _ (fun t _ => flushed_eq V c t) fun i => by
    have hi0 : (i 0).val < 100000 := (i 0).isLt
    have hi1 : (i 1).val < 40 := (i 1).isLt
    have hN : cfg2.N = 5 := N_2
    let t : Fin cfg2.N := ⟨(i 0).val / 20000, by omega⟩
    have ht : t.val = (i 0).val / 20000 := rfl
    obtain ⟨-, -, -, -, e4, e5⟩ := idx_facts t
    refine ⟨t, flush2_2 t, ?_⟩
    rw [mem_blk]
    intro a
    match a with
    | ⟨0, _⟩ => show win2_2.index t 0 * 20000 ≤ (i 0).val ∧ (i 0).val < win2_2.index t 0 * 20000 + 20000; rw [e4, ht]; omega
    | ⟨1, _⟩ => show win2_2.index t 1 * 40 ≤ (i 1).val ∧ (i 1).val < win2_2.index t 1 * 40 + 40; rw [e5]; omega

end Cert.Gcn.Region2

end
-- ==== Proof.Stretch.lean ====
/-
  The host stretches of the idealized kernel program, read as functions of the buffers they start from.

  Between the regions the program runs three stretches of host operations. The first cuts the edge table into its source and
  destination rows. The second gathers, scales and sums the first layer's rows along the edges and casts the first bias to a row;
  the third does the same with the second layer's rows and the second bias. Each result is stated for ANY contents `W` of the
  buffers the stretch starts from, so that the program's boundary contents — long folds — are never opened. A buffer no
  operation of a stretch writes keeps its contents through it.
-/
import proofs.«135168_j17489106829462_2_alg».proof.Proof.Gen.KernelIdeal.Launch
import proofs.«135168_j17489106829462_2_alg».proof.Proof.Spec
import Idealize.ShloMosaic.Lib.StableHlo.Run

noncomputable section

namespace Cert.Gcn.Stretch

open Idealize.ShloMosaic Idealize.ShloMosaic.TcCoe Idealize.SL.Sem Idealize.ShloMosaic.StableHlo
open Cert.KernelIdeal Cert.KernelIdeal.Gen

/-- No operation of the named stretch writes the buffer at hand. -/
macro "untouched" : tactic => `(tactic| (
  refine List.forall_iff_forall_mem.mp ?_
  simp only [hostOps0, hostOps1, hostOps2, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

variable (W : Valuation τ sig (Elt Ideal))

/-! ## The first stretch: the edge table's two rows -/

theorem src_after0 : StableHlo.after hostOps0 W (Proc.devRef .tc main_v1) = Cert.Gcn.src (W (Proc.devRef .tc main_arg1)) := by
  after_results; rfl

theorem dst_after0 : StableHlo.after hostOps0 W (Proc.devRef .tc main_v3) = Cert.Gcn.dst (W (Proc.devRef .tc main_arg1)) := by
  after_results; rfl

theorem arg0_after0 : StableHlo.after hostOps0 W (Proc.devRef .tc main_arg0) = W (Proc.devRef .tc main_arg0) :=
  StableHlo.after_of_forall_not_mem (b := Proc.devRef .tc main_arg0) _ _ (by untouched)
theorem arg2_after0 : StableHlo.after hostOps0 W (Proc.devRef .tc main_arg2) = W (Proc.devRef .tc main_arg2) :=
  StableHlo.after_of_forall_not_mem (b := Proc.devRef .tc main_arg2) _ _ (by untouched)
theorem arg3_after0 : StableHlo.after hostOps0 W (Proc.devRef .tc main_arg3) = W (Proc.devRef .tc main_arg3) :=
  StableHlo.after_of_forall_not_mem (b := Proc.devRef .tc main_arg3) _ _ (by untouched)
theorem arg4_after0 : StableHlo.after hostOps0 W (Proc.devRef .tc main_arg4) = W (Proc.devRef .tc main_arg4) :=
  StableHlo.after_of_forall_not_mem (b := Proc.devRef .tc main_arg4) _ _ (by untouched)
theorem arg5_after0 : StableHlo.after hostOps0 W (Proc.devRef .tc main_arg5) = W (Proc.devRef .tc main_arg5) :=
  StableHlo.after_of_forall_not_mem (b := Proc.devRef .tc main_arg5) _ _ (by untouched)
theorem arg6_after0 : StableHlo.after hostOps0 W (Proc.devRef .tc main_arg6) = W (Proc.devRef .tc main_arg6) :=
  StableHlo.after_of_forall_not_mem (b := Proc.devRef .tc main_arg6) _ _ (by untouched)

/-! ## The second stretch: the first layer's rows along the edges, and the first bias as a row -/

theorem agg_after1 : StableHlo.after hostOps1 W (Proc.devRef .tc main_v17)
    = Cert.Gcn.agg32 (W (Proc.devRef .tc main_v4)) (W (Proc.devRef .tc main_v1)) (W (Proc.devRef .tc main_v3)) (W (Proc.devRef .tc main_arg2)) := by
  after_results; rfl

theorem bias_after1 : StableHlo.after hostOps1 W (Proc.devRef .tc main_v18)
    = shapeCast S1x32 (W (Proc.devRef .tc main_arg4) : FVec Ideal S32 .f32) Facts₀.shapeCasts_S32_S1x32 := by
  after_results; rfl

theorem v1_after1 : StableHlo.after hostOps1 W (Proc.devRef .tc main_v1) = W (Proc.devRef .tc main_v1) :=
  StableHlo.after_of_forall_not_mem (b := Proc.devRef .tc main_v1) _ _ (by untouched)
theorem v3_after1 : StableHlo.after hostOps1 W (Proc.devRef .tc main_v3) = W (Proc.devRef .tc main_v3) :=
  StableHlo.after_of_forall_not_mem (b := Proc.devRef .tc main_v3) _ _ (by untouched)
theorem arg2_after1 : StableHlo.after hostOps1 W (Proc.devRef .tc main_arg2) = W (Proc.devRef .tc main_arg2) :=
  StableHlo.after_of_forall_not_mem (b := Proc.devRef .tc main_arg2) _ _ (by untouched)
theorem arg5_after1 : StableHlo.after hostOps1 W (Proc.devRef .tc main_arg5) = W (Proc.devRef .tc main_arg5) :=
  StableHlo.after_of_forall_not_mem (b := Proc.devRef .tc main_arg5) _ _ (by untouched)
theorem arg6_after1 : StableHlo.after hostOps1 W (Proc.devRef .tc main_arg6) = W (Proc.devRef .tc main_arg6) :=
  StableHlo.after_of_forall_not_mem (b := Proc.devRef .tc main_arg6) _ _ (by untouched)

/-! ## The third stretch: the second layer's rows along the edges, and the second bias as a row -/

theorem agg_after2 : StableHlo.after hostOps2 W (Proc.devRef .tc main_v32)
    = Cert.Gcn.agg40 (W (Proc.devRef .tc main_v19)) (W (Proc.devRef .tc main_v1)) (W (Proc.devRef .tc main_v3)) (W (Proc.devRef .tc main_arg2)) := by
  after_results; rfl

theorem bias_after2 : StableHlo.after hostOps2 W (Proc.devRef .tc main_v33)
    = shapeCast S1x40 (W (Proc.devRef .tc main_arg6) : FVec Ideal S40 .f32) Facts₀.shapeCasts_S40_S1x40 := by
  after_results; rfl

end Cert.Gcn.Stretch

end
-- ==== Proof.KernelValue.lean ====
/-
  The idealized kernel program's result as a function of its arguments.

  The contents of the result buffer at the program's last boundary are followed back through the segments: the third region
  leaves the row-wise log-softmax of the logits it finds; the third host stretch made those from the second region's array; the
  second region leaves `layer2` of what the second stretch made from the first region's array; the first region leaves the
  product of the features and the first weights. The edge table's rows, the edge weights and the later arguments pass
  through every segment that does not write them. Composed, the result is `Gcn.out` of the arguments, the biases cast to rows.
-/
import proofs.«135168_j17489106829462_2_alg».proof.Proof.KernelRun
import proofs.«135168_j17489106829462_2_alg».proof.Proof.Region0
import proofs.«135168_j17489106829462_2_alg».proof.Proof.Region1
import proofs.«135168_j17489106829462_2_alg».proof.Proof.Region2
import proofs.«135168_j17489106829462_2_alg».proof.Proof.Stretch

noncomputable section

namespace Cert.Gcn.KernelValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-! ## After the first stretch -/

theorem src1 : W1 m ρ c (Proc.devRef .tc main_v1) = Cert.Gcn.src (m ((c : Thread nD τ).loc main_arg1)) := Stretch.src_after0 (W0 m ρ c)
theorem dst1 : W1 m ρ c (Proc.devRef .tc main_v3) = Cert.Gcn.dst (m ((c : Thread nD τ).loc main_arg1)) := Stretch.dst_after0 (W0 m ρ c)
theorem arg0_1 : W1 m ρ c (Proc.devRef .tc main_arg0) = m ((c : Thread nD τ).loc main_arg0) := Stretch.arg0_after0 (W0 m ρ c)
theorem arg2_1 : W1 m ρ c (Proc.devRef .tc main_arg2) = m ((c : Thread nD τ).loc main_arg2) := Stretch.arg2_after0 (W0 m ρ c)
theorem arg3_1 : W1 m ρ c (Proc.devRef .tc main_arg3) = m ((c : Thread nD τ).loc main_arg3) := Stretch.arg3_after0 (W0 m ρ c)
theorem arg4_1 : W1 m ρ c (Proc.devRef .tc main_arg4) = m ((c : Thread nD τ).loc main_arg4) := Stretch.arg4_after0 (W0 m ρ c)
theorem arg5_1 : W1 m ρ c (Proc.devRef .tc main_arg5) = m ((c : Thread nD τ).loc main_arg5) := Stretch.arg5_after0 (W0 m ρ c)
theorem arg6_1 : W1 m ρ c (Proc.devRef .tc main_arg6) = m ((c : Thread nD τ).loc main_arg6) := Stretch.arg6_after0 (W0 m ρ c)

/-! ## After the first region -/

theorem src2 : W2 m ρ c (Proc.devRef .tc main_v1) = Cert.Gcn.src (m ((c : Thread nD τ).loc main_arg1)) :=
  (W2_of_ne m ρ c main_v1 (by decide)).trans (src1 m ρ c)
theorem dst2 : W2 m ρ c (Proc.devRef .tc main_v3) = Cert.Gcn.dst (m ((c : Thread nD τ).loc main_arg1)) :=
  (W2_of_ne m ρ c main_v3 (by decide)).trans (dst1 m ρ c)
theorem arg2_2 : W2 m ρ c (Proc.devRef .tc main_arg2) = m ((c : Thread nD τ).loc main_arg2) :=
  (W2_of_ne m ρ c main_arg2 (by decide)).trans (arg2_1 m ρ c)
theorem arg4_2 : W2 m ρ c (Proc.devRef .tc main_arg4) = m ((c : Thread nD τ).loc main_arg4) :=
  (W2_of_ne m ρ c main_arg4 (by decide)).trans (arg4_1 m ρ c)
theorem arg5_2 : W2 m ρ c (Proc.devRef .tc main_arg5) = m ((c : Thread nD τ).loc main_arg5) :=
  (W2_of_ne m ρ c main_arg5 (by decide)).trans (arg5_1 m ρ c)
theorem arg6_2 : W2 m ρ c (Proc.devRef .tc main_arg6) = m ((c : Thread nD τ).loc main_arg6) :=
  (W2_of_ne m ρ c main_arg6 (by decide)).trans (arg6_1 m ρ c)

/-- The first region's array: the product of the features and the first weights. -/
theorem h1_2 : W2 m ρ c (Proc.devRef .tc main_v4)
    = Cert.Gcn.layer1 (m ((c : Thread nD τ).loc main_arg0)) (m ((c : Thread nD τ).loc main_arg3)) :=
  ((W2_arr m ρ c 2).trans (Region0.final (V1 m ρ) c)).trans (congrArg₂ Cert.Gcn.layer1 (arg0_1 m ρ c) (arg3_1 m ρ c))

/-! ## After the second stretch -/

theorem src3 : W3 m ρ c (Proc.devRef .tc main_v1) = Cert.Gcn.src (m ((c : Thread nD τ).loc main_arg1)) :=
  (Stretch.v1_after1 (W2 m ρ c)).trans (src2 m ρ c)
theorem dst3 : W3 m ρ c (Proc.devRef .tc main_v3) = Cert.Gcn.dst (m ((c : Thread nD τ).loc main_arg1)) :=
  (Stretch.v3_after1 (W2 m ρ c)).trans (dst2 m ρ c)
theorem arg2_3 : W3 m ρ c (Proc.devRef .tc main_arg2) = m ((c : Thread nD τ).loc main_arg2) :=
  (Stretch.arg2_after1 (W2 m ρ c)).trans (arg2_2 m ρ c)
theorem arg5_3 : W3 m ρ c (Proc.devRef .tc main_arg5) = m ((c : Thread nD τ).loc main_arg5) :=
  (Stretch.arg5_after1 (W2 m ρ c)).trans (arg5_2 m ρ c)
theorem arg6_3 : W3 m ρ c (Proc.devRef .tc main_arg6) = m ((c : Thread nD τ).loc main_arg6) :=
  (Stretch.arg6_after1 (W2 m ρ c)).trans (arg6_2 m ρ c)

/-- The first aggregate. -/
def a1 : FVec Ideal Cert.ReferenceIdeal.S100000x32 .f32 :=
  Cert.Gcn.agg32 (Cert.Gcn.layer1 (m ((c : Thread nD τ).loc main_arg0)) (m ((c : Thread nD τ).loc main_arg3)))
    (Cert.Gcn.src (m ((c : Thread nD τ).loc main_arg1))) (Cert.Gcn.dst (m ((c : Thread nD τ).loc main_arg1)))
    (m ((c : Thread nD τ).loc main_arg2))

theorem a1_3 : W3 m ρ c (Proc.devRef .tc main_v17) = a1 m c :=
  (Stretch.agg_after1 (W2 m ρ c)).trans (by rw [h1_2, src2, dst2, arg2_2]; rfl)

/-- The first bias as a row. -/
def b1row : FVec Ideal S1x32 .f32 := shapeCast S1x32 (m ((c : Thread nD τ).loc main_arg4) : FVec Ideal S32 .f32) Facts₀.shapeCasts_S32_S1x32

theorem b1_3 : W3 m ρ c (Proc.devRef .tc main_v18) = b1row m c :=
  (Stretch.bias_after1 (W2 m ρ c)).trans (by rw [arg4_2]; rfl)

/-! ## After the second region -/

theorem src4 : W4 m ρ c (Proc.devRef .tc main_v1) = Cert.Gcn.src (m ((c : Thread nD τ).loc main_arg1)) :=
  (W4_of_ne m ρ c main_v1 (by decide)).trans (src3 m ρ c)
theorem dst4 : W4 m ρ c (Proc.devRef .tc main_v3) = Cert.Gcn.dst (m ((c : Thread nD τ).loc main_arg1)) :=
  (W4_of_ne m ρ c main_v3 (by decide)).trans (dst3 m ρ c)
theorem arg2_4 : W4 m ρ c (Proc.devRef .tc main_arg2) = m ((c : Thread nD τ).loc main_arg2) :=
  (W4_of_ne m ρ c main_arg2 (by decide)).trans (arg2_3 m ρ c)
theorem arg6_4 : W4 m ρ c (Proc.devRef .tc main_arg6) = m ((c : Thread nD τ).loc main_arg6) :=
  (W4_of_ne m ρ c main_arg6 (by decide)).trans (arg6_3 m ρ c)

/-- The second region's array: `layer2` of the first aggregate. -/
theorem h2_4 : W4 m ρ c (Proc.devRef .tc main_v19)
    = Cert.Gcn.layer2 (a1 m c) (b1row m c) (m ((c : Thread nD τ).loc main_arg5)) :=
  ((W4_arr m ρ c 3).trans (Region1.final (V3 m ρ) c)).trans
    (by rw [show V3 m ρ c main_v17 = a1 m c from a1_3 m ρ c, show V3 m ρ c main_v18 = b1row m c from b1_3 m ρ c,
      show V3 m ρ c main_arg5 = m ((c : Thread nD τ).loc main_arg5) from arg5_3 m ρ c])

/-! ## After the third stretch -/

/-- The second aggregate. -/
def a2 : FVec Ideal Cert.ReferenceIdeal.S100000x40 .f32 :=
  Cert.Gcn.agg40 (Cert.Gcn.layer2 (a1 m c) (b1row m c) (m ((c : Thread nD τ).loc main_arg5)))
    (Cert.Gcn.src (m ((c : Thread nD τ).loc main_arg1))) (Cert.Gcn.dst (m ((c : Thread nD τ).loc main_arg1)))
    (m ((c : Thread nD τ).loc main_arg2))

theorem a2_5 : W5 m ρ c (Proc.devRef .tc main_v32) = a2 m c :=
  (Stretch.agg_after2 (W4 m ρ c)).trans (by rw [h2_4, src4, dst4, arg2_4]; rfl)

/-- The second bias as a row. -/
def b2row : FVec Ideal S1x40 .f32 := shapeCast S1x40 (m ((c : Thread nD τ).loc main_arg6) : FVec Ideal S40 .f32) Facts₀.shapeCasts_S40_S1x40

theorem b2_5 : W5 m ρ c (Proc.devRef .tc main_v33) = b2row m c :=
  (Stretch.bias_after2 (W4 m ρ c)).trans (by rw [arg6_4]; rfl)

/-! ## After the third region -/

/-- THE RESULT buffer at the last boundary: `Gcn.out` of the arguments, the biases cast to rows. -/
theorem result : W6 m ρ c (Proc.devRef .tc main_v34)
    = Cert.Gcn.out (m ((c : Thread nD τ).loc main_arg0)) (m ((c : Thread nD τ).loc main_arg1)) (m ((c : Thread nD τ).loc main_arg2))
        (m ((c : Thread nD τ).loc main_arg3)) (b1row m c) (m ((c : Thread nD τ).loc main_arg5)) (b2row m c) :=
  ((W6_arr m ρ c 2).trans (Region2.final (V5 m ρ) c)).trans
    (by rw [show V5 m ρ c main_v32 = a2 m c from a2_5 m ρ c, show V5 m ρ c main_v33 = b2row m c from b2_5 m ρ c]; rfl)

/-- The run of the idealized kernel program, its result named. -/
theorem run : θ_run defs (onTc (τ := τ) (main (F := Ideal))) ⟨m, fun _ => 0, ρ⟩ (fun r => ∀ c : Dev nD,
      r.2.mem ((c.tc : Thread nD τ).loc main_v34)
        = Cert.Gcn.out (m ((c : Thread nD τ).loc main_arg0)) (m ((c : Thread nD τ).loc main_arg1)) (m ((c : Thread nD τ).loc main_arg2))
            (m ((c : Thread nD τ).loc main_arg3)) (b1row m c) (m ((c : Thread nD τ).loc main_arg5)) (b2row m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result m ρ c), (h c).2⟩) (Cert.KernelIdeal.Whole.run_named m ρ)

end Cert.Gcn.KernelValue

end
-- ==== Proof.RefValue.lean ====
/-
  The idealized reference program's operations, folded over any starting contents and read at the result buffer.

  The reference is a straight line of 66 host operations (a called function's operations stand in its call's place). Read at
  the result buffer, their fold is the composition `Gcn.out` of the stage functions of the arguments, the two biases placed as
  rows by `broadcast_in_dim`. The operations of the two called functions write and read their buffers through a transport
  along the buffer's type; a transport followed by its inverse is the identity, and at a literal buffer, whose type is the
  value's by computation, a transport by itself is the identity too.
-/
import proofs.«135168_j17489106829462_2_alg».proof.Proof.RefRun
import proofs.«135168_j17489106829462_2_alg».proof.Proof.Spec

noncomputable section

namespace Cert.Gcn.RefValue

open Idealize.ShloMosaic Idealize.ShloMosaic.TcCoe Idealize.SL.Sem Idealize.ShloMosaic.StableHlo
open Cert.ReferenceIdeal Cert.ReferenceIdeal.Gen Cert.ReferenceIdeal.ValueP

/-- Contents carried to a buffer's own type and back are the contents. -/
theorem ofBuf_toBuf {Val : EltTy → Type} {T : BufTy} (x : TRef sig T) (v : T.Contents Val) : x.ofBuf (x.toBuf v) = v := by
  obtain ⟨r, h, h1, h2⟩ := x
  subst h
  rfl

variable {Val : EltTy → Type}

/-- The four buffers a called function shares with @main's own operations: at each the transport is the identity. -/
theorem ofBuf_v20 (p1 p2 p3) (v : main_v20.ty.Contents Val) :
    (TRef.of (T := ⟨S100000x32, .f32⟩) main_v20 p1 p2 p3).ofBuf v = v := rfl
theorem toBuf_v21 (p1 p2 p3) (v : (⟨S100000x32, .f32⟩ : BufTy).Contents Val) :
    (TRef.of (T := ⟨S100000x32, .f32⟩) main_v21 p1 p2 p3).toBuf v = v := rfl
theorem ofBuf_v42 (p1 p2 p3) (v : main_v42.ty.Contents Val) :
    (TRef.of (T := ⟨S100000x40, .f32⟩) main_v42 p1 p2 p3).ofBuf v = v := rfl
theorem toBuf_v43 (p1 p2 p3) (v : (⟨S100000x40, .f32⟩ : BufTy).Contents Val) :
    (TRef.of (T := ⟨S100000x40, .f32⟩) main_v43 p1 p2 p3).toBuf v = v := rfl

set_option maxHeartbeats 4000000 in
/-- The operations' fold at the result buffer, from ANY contents `W`: `Gcn.out` of the arguments' contents. -/
theorem value (W : Valuation τ sig (Elt Ideal)) : StableHlo.after ops W (Proc.devRef .tc main_v43)
    = Cert.Gcn.out (W (Proc.devRef .tc main_arg0)) (W (Proc.devRef .tc main_arg1)) (W (Proc.devRef .tc main_arg2)) (W (Proc.devRef .tc main_arg3))
        (broadcastInDim S1x32 ![1] Facts₀.bcast_S32_S1x32_1 (W (Proc.devRef .tc main_arg4))) (W (Proc.devRef .tc main_arg5))
        (broadcastInDim S1x40 ![1] Facts₀.bcast_S40_S1x40_1 (W (Proc.devRef .tc main_arg6))) := by
  after_results_simp
  simp only [ofBuf_toBuf, ofBuf_v20, toBuf_v21, ofBuf_v42, toBuf_v43]
  rfl

end Cert.Gcn.RefValue

end
-- ==== Proof.RefWhole.lean ====
/-
  The idealized reference program's run, its result stated over the stage functions.

  The reference is a straight line of host operations, so every weakly fair execution terminates with each buffer at the fold
  of the operations over the launch memory. The result buffer then holds `Gcn.out` of the arguments (Proof/RefValue.lean), and
  no operation writes an argument buffer.
-/
import proofs.«135168_j17489106829462_2_alg».proof.Proof.RefValue

noncomputable section

namespace Cert.Gcn.RefWhole

open Idealize.ShloMosaic Idealize.ShloMosaic.TcCoe Idealize.SL.Sem Idealize.ShloMosaic.StableHlo
open Cert.ReferenceIdeal Cert.ReferenceIdeal.Gen Cert.ReferenceIdeal.ValueP

set_option maxRecDepth 8192 in
set_option maxHeartbeats 26400000 in
/-- On every device, from any memory with zero counters: every weakly fair execution of the reference terminates with the
    result at `Gcn.out` of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43)
        = Cert.Gcn.out (m ((c.tc : Thread nD τ).loc main_arg0)) (m ((c.tc : Thread nD τ).loc main_arg1)) (m ((c.tc : Thread nD τ).loc main_arg2))
            (m ((c.tc : Thread nD τ).loc main_arg3))
            (broadcastInDim S1x32 ![1] Facts₀.bcast_S32_S1x32_1 (m ((c.tc : Thread nD τ).loc main_arg4))) (m ((c.tc : Thread nD τ).loc main_arg5))
            (broadcastInDim S1x40 ![1] Facts₀.bcast_S40_S1x40_1 (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v43).trans (Cert.Gcn.RefValue.value _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.Gcn.RefWhole

end
-- ==== Proof.LibBiasRow.lean ====
/-
  A vector as the one row of a matrix, in two spellings.

  A kernel's program casts a bias vector of length `b` to the shape `[1, b]`; the host places it there with `broadcast_in_dim`
  along axis 1. Both arrays hold, at `(0, q)`, the vector's entry `q`: they are one array.
-/
import proofs.«135168_j17489106829462_2_alg».proof.Proof.LibHostRowMax
import Idealize.ShloMosaic.Lib.Pipeline.Value
import Idealize.ShloMosaic.Lib.ValueIdx
import Idealize.ShloMosaic.Lib.ValueLayout

noncomputable section

namespace Cert.BiasRow

open Idealize.ShloMosaic Idealize.ShloMosaic.ValueIdx

variable {α : Type}

/-- A `[b]` vector cast to `[1, b]` is the vector placed as the one row by `broadcast_in_dim` with `dims = [1]`. -/
theorem cast_eq_bcast {b : ℕ} (v : (⟨1, ![b]⟩ : Shape).Idx → α) (h1 : (⟨1, ![b]⟩ : Shape).ShapeCasts ⟨2, ![1, b]⟩)
    (h2 : (⟨1, ![b]⟩ : Shape).BroadcastsInDim ⟨2, ![1, b]⟩ (![1] : Fin 1 → Fin 2)) :
    shapeCast ⟨2, ![1, b]⟩ v h1 = broadcastInDim ⟨2, ![1, b]⟩ ![1] h2 v := by
  funext i
  obtain ⟨u, q, rfl⟩ : ∃ (u : Fin 1) (q : Fin b), i = ix2 u q := ⟨i 0, i 1, eq_ix2 i⟩
  rw [shapeCast_a_1a_apply, Cert.HostRowMax.broadcastInDim_row_apply]

end Cert.BiasRow

end
-- ==== Proof.lean ====
/-
  The certificate of a two-layer graph convolution with a row-wise log-softmax: three Pallas kernels (a dense product; bias,
  cut at zero and a dense product; bias and log-softmax) among host gathers and scatter-adds, against a plain jnp reference.

  Frames. The word-level kernel's and the idealized kernel's frames are the generated frame certificates; the reference's
  frame is its run with the result dropped.
  Idealization. The ideal pass rewrote no operation: nothing to preserve.
  Values. At the ideal values both programs compute `Gcn.out` (Proof/Spec.lean) of the arguments:
    * each kernel region works on five blocks of 20000 rows, and each of its steps — a matrix product's entry, a bias added along
      a row, a maximum with zero, a row's log-softmax — depends on the entry's own row only, so the region's five write-backs are
      the host's operation on the whole arrays (Proof/Region0.lean, Region1.lean, Region2.lean): a `tpu.matmul` into a zero
      accumulator and the host's `dot_general` are the same sum over the contracted axis; the lane maximum and lane sum of the
      kernel's log-softmax and the host's `reduce`s are the same fold and the same sum over a row;
    * the gather, the scaling by the edge weights and the scatter-add between the regions are the same host operations in
      both programs and are carried as one function, never opened (Proof/Stretch.lean);
    * the kernel's program casts each bias vector to a row where the reference places it with `broadcast_in_dim`: one array
      (Proof/LibBiasRow.lean).
  No algebraic law beyond these readings is used, so the precondition (finite inputs) is never opened.
-/
import proofs.«135168_j17489106829462_2_alg».proof.Defs
import proofs.«135168_j17489106829462_2_alg».proof.Proof.Gen.Kernel
import proofs.«135168_j17489106829462_2_alg».proof.Proof.Gen.Kernel.Skeleton
import proofs.«135168_j17489106829462_2_alg».proof.Proof.Gen.Kernel.Launch
import proofs.«135168_j17489106829462_2_alg».proof.Proof.Gen.Kernel.Points
import proofs.«135168_j17489106829462_2_alg».proof.Proof.Gen.Kernel.Frame
import proofs.«135168_j17489106829462_2_alg».proof.Proof.Gen.KernelIdeal
import proofs.«135168_j17489106829462_2_alg».proof.Proof.Gen.KernelIdeal.Skeleton
import proofs.«135168_j17489106829462_2_alg».proof.Proof.Gen.KernelIdeal.Launch
import proofs.«135168_j17489106829462_2_alg».proof.Proof.Gen.KernelIdeal.Points
import proofs.«135168_j17489106829462_2_alg».proof.Proof.Gen.KernelIdeal.Frame
import proofs.«135168_j17489106829462_2_alg».proof.Proof.Gen.ReferenceIdeal
import proofs.«135168_j17489106829462_2_alg».proof.Proof.Gen.Pre_finite_inputs
import proofs.«135168_j17489106829462_2_alg».proof.Proof.KernelValue
import proofs.«135168_j17489106829462_2_alg».proof.Proof.RefWhole
import proofs.«135168_j17489106829462_2_alg».proof.Proof.LibBiasRow
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.Gcn.RefWhole.run m ρ)

/-- Both idealized programs end with `Gcn.out` of the arguments in their result buffers: the kernel's program with each bias
    cast to a row, the reference with each bias placed as a row by `broadcast_in_dim`, which is the same row. -/
theorem algebraic : Cert.algebraic_KernelIdeal_ReferenceIdeal := by
  intro m ρ m' ρ' _ hagree
  refine ⟨_, Cert.Gcn.KernelValue.run m ρ, ?_⟩
  refine (θ_run Cert.ReferenceIdeal.defs _ _).mono (fun _ h c => ⟨(h c).1.trans ?_, (h c).2⟩) (Cert.Gcn.RefWhole.run m' ρ')
  obtain ⟨h0, h1, h2, h3, h4, h5, h6⟩ := hagree c
  rw [h0, h1, h2, h3, h4, h5, h6]
  unfold Cert.Gcn.KernelValue.b1row Cert.Gcn.KernelValue.b2row
  rw [Cert.BiasRow.cast_eq_bcast _ _ Cert.ReferenceIdeal.Facts₀.bcast_S32_S1x32_1,
    Cert.BiasRow.cast_eq_bcast _ _ Cert.ReferenceIdeal.Facts₀.bcast_S40_S1x40_1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
